-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x3200000 : Shape := ⟨2, ![2, 3200000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64 .f32) (main_arg4 : FVec F S64 .f32) (main_arg5 : FVec F S64x1 .f32) (main_arg6 : FVec F S1 .f32) (main_arg7 : IVec S2x3200000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 107
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2x3200000, .i32⟩
  | .hbm, ⟨8, _⟩ => ⟨S100000, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S1x64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S100000x64, .f32⟩
  | .hbm, ⟨86, _⟩ => ⟨S100000x1, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x1, .f32⟩
  | .hbm, ⟨96, _⟩ => ⟨S3300000x1, .f32⟩
  | .hbm, ⟨97, _⟩ => ⟨S3300000x1, .f32⟩
  | .hbm, ⟨98, _⟩ => ⟨S_, .f32⟩
  | .hbm, ⟨99, _⟩ => ⟨S100000x1, .f32⟩
  | .hbm, ⟨100, _⟩ => ⟨S3300000x1, .i32⟩
  | .hbm, ⟨101, _⟩ => ⟨S100000x1, .f32⟩
  | .hbm, ⟨102, _⟩ => ⟨S1x1, .f32⟩
  | .hbm, ⟨103, _⟩ => ⟨S100000x1, .f32⟩
  | .hbm, ⟨104, _⟩ => ⟨S100000x1, .f32⟩
  | .hbm, ⟨105, _⟩ => ⟨S100000x1, .f32⟩
  | .hbm, ⟨106, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x1, .f32⟩
  | .local _ .vmem, ⟨20, _⟩ => ⟨S10000x1, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S10000x1_S10000x1 : S10000x1.ShapeCasts S10000x1
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x1_S10000x1_1_0_0_1_n_n_wf : DotDims.WF S10000x64 S64x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .f32 = 32 ∨ (Rect.block (s := S100000x1) S10000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S10000x1.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64, .f32⟩
  | 4 => ⟨S64, .f32⟩
  | 5 => ⟨S64x1, .f32⟩
  | 6 => ⟨S1, .f32⟩
  | 7 => ⟨S2x3200000, .i32⟩
  | 8 => ⟨S100000, .i32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S100000x64, .f32⟩
  | 78 => ⟨S_, .f32⟩
  | 79 => ⟨S64, .f32⟩
  | 80 => ⟨S_, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x1, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x1, .f32⟩
  | 112 => ⟨S3300000x1, .f32⟩
  | 113 => ⟨S3300000x1, .f32⟩
  | 114 => ⟨S_, .f32⟩
  | 115 => ⟨S100000x1, .f32⟩
  | 116 => ⟨S3300000x1, .i32⟩
  | 117 => ⟨S100000x1, .f32⟩
  | 118 => ⟨S1x1, .f32⟩
  | 119 => ⟨S100000x1, .f32⟩
  | 120 => ⟨S100000x1, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_cst : Ref sig .tc := ⟨.hbm, 99, rfl⟩
abbrev main_call1_v0 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.ValueRun.lean ====
/-
  The run of the idealized kernel program, with its RESULT named.

  The program is five kernel regions among stretches of host operations. Running it from a memory `m`, the
  contents of the TensorCore's buffers at each boundary between two segments are a fold through the program:
  a stretch of host operations replaces the buffers it writes by its operations' values of the buffers before it,
  and a region replaces each of its output arrays by what its grid points' write-backs leave there, every other
  buffer staying as it was. `Gen.W12 m ρ c` is the end of that fold: the buffer contents after the last host
  operation. The launch below shows that every weakly fair execution terminates without a fault in a state whose
  memory holds, at every buffer that outlives a region, exactly `Gen.W12 m ρ c`; read at the program's result
  buffer and at its nine argument buffers this is the statement `run`: the result is the fold's last value, and
  the arguments end as they were launched.
-/
import proofs.«113359_j37572373905743_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer holding the
    last value of the fold through the program's segments and each argument buffer holding what it was launched
    with. -/
theorem run : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.ValueRun

end
-- ==== Proof.Spec.lean ====
/-
  The computation both programs perform, stage by stage, as plain functions of whole arrays.

  The network has 100000 nodes and 3200000 directed edges `e = (source row; target row)`. Every node also gets a
  self-loop, so there are 3300000 edges in all (`srcIdx`, `dstIdx`: the given ends followed by the node ids).
  A node's degree is the number of edges that end in it (`degree`: ones scatter-added into zeros);
  `invSqrtDeg` is `degree^(-1/2)` where the degree is positive and `0` elsewhere; an edge's weight is the
  product of that quantity at its two ends (`edgeWeight`; a negative node id counts from the end, `wrapIdx`).

  One graph convolution of a node-feature array `h` (`conv64` for 64 features, `conv1` for one): gather the source
  node's feature row for every edge, scale it by the edge's weight, add it into the target node's row, and add
  the bias to every row. The network is: a linear map (`lin1`), a convolution, a normalisation of every feature
  column by its mean and variance over the nodes followed by a scale, a shift and a clamp at zero (`normRelu`),
  a second linear map (`lin2`) and convolution, and the logistic function (`sigm`). The variance here is the mean
  of the squared deviations from the mean (`colVar`).
-/
import proofs.«113359_j37572373905743_1_alg».proof.Proof.Gen.ReferenceIdeal

noncomputable section

namespace Cert.Spec

open Cert.ReferenceIdeal Cert.ReferenceIdeal.Facts₀ Idealize.ShloMosaic

variable {F : FTy → Type} [FloatOps F]

/-- The source node of every edge: the given sources, then every node once (its self-loop). -/
def srcIdx (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The target node of every edge: the given targets, then every node once. -/
def dstIdx (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A negative node id counts from the end: `v + 100000` where `v < 0`. -/
def wrapIdx (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A list of node ids as a one-column index array. -/
def col (v : IVec S3300000 32) : IVec S3300000x1 32 := broadcastInDim S3300000x1 ![0] bcast_S3300000_S3300000x1_0 v

/-- The number of edges ending in each node. -/
def degree (e : IVec S2x3200000 32) : FVec F S100000 .f32 :=
  Host.scatterAdd (F := F) scatter_S100000_S3300000x1_S3300000_n_0_0_1
    (broadcastInDim S100000 ![] bcast_S_S100000 (constant (F := F) S_ .f32 0x00000000#32)) (col (dstIdx e))
    (broadcastInDim S3300000 ![] bcast_S_S3300000 (constant (F := F) S_ .f32 0x3F800000#32))

/-- `degree^(-1/2)` where the degree is positive, `0` elsewhere. -/
def invSqrtDeg (e : IVec S2x3200000 32) : FVec F S100000 .f32 :=
  select (cmpf (F := F) .ogt (degree (F := F) e) (broadcastInDim S100000 ![] bcast_S_S100000 (constant (F := F) S_ .f32 0x00000000#32)))
    (Host.rsqrt (F := F) (degree (F := F) e))
    (broadcastInDim S100000 ![] bcast_S_S100000 (constant (F := F) S_ .f32 0x00000000#32))

/-- An edge's weight: `invSqrtDeg` at its source times `invSqrtDeg` at its target. -/
def edgeWeight (e : IVec S2x3200000 32) : FVec F S3300000 .f32 :=
  mulf (Host.gather gather_S100000_S3300000x1_S3300000_n_0_n_n_0_1_1 (invSqrtDeg (F := F) e) (col (wrapIdx (srcIdx e))))
    (Host.gather gather_S100000_S3300000x1_S3300000_n_0_n_n_0_1_1 (invSqrtDeg (F := F) e) (col (wrapIdx (dstIdx e))))

/-- The first linear map: `x · w`, 128 input features to 64. -/
def lin1 (x : FVec F S100000x128 .f32) (w : FVec F S128x64 .f32) : FVec F S100000x64 .f32 :=
  Host.dotGeneral (F := F) dot_S100000x128_S128x64_S100000x64_1_0_0_1_n_n none x w

/-- The second linear map: `h · w`, 64 features to one. -/
def lin2 (h : FVec F S100000x64 .f32) (w : FVec F S64x1 .f32) : FVec F S100000x1 .f32 :=
  Host.dotGeneral (F := F) dot_S100000x64_S64x1_S100000x1_1_0_0_1_n_n none h w

/-- One graph convolution of 64 features: each target row receives the weighted source rows of its edges, plus the bias. -/
def conv64 (h : FVec F S100000x64 .f32) (e : IVec S2x3200000 32) (b : FVec F S64 .f32) : FVec F S100000x64 .f32 :=
  addf
    (Host.scatterAdd (F := F) scatter_S100000x64_S3300000x1_S3300000x64_1_0_0_1
      (broadcastInDim S100000x64 ![] bcast_S_S100000x64 (constant (F := F) S_ .f32 0x00000000#32)) (col (dstIdx e))
      (mulf (Host.gather gather_S100000x64_S3300000x1_S3300000x64_1_0_n_n_0_1_164 h (col (wrapIdx (srcIdx e))))
        (broadcastInDim S3300000x64 ![0, 1] bcast_S3300000x1_S3300000x64_0_1
          (broadcastInDim S3300000x1 ![0] bcast_S3300000_S3300000x1_0 (edgeWeight (F := F) e)))))
    (broadcastInDim S100000x64 ![0, 1] bcast_S1x64_S100000x64_0_1 (broadcastInDim S1x64 ![1] bcast_S64_S1x64_1 b))

/-- One graph convolution of a single feature. -/
def conv1 (h : FVec F S100000x1 .f32) (e : IVec S2x3200000 32) (b : FVec F S1 .f32) : FVec F S100000x1 .f32 :=
  addf
    (Host.scatterAdd (F := F) scatter_S100000x1_S3300000x1_S3300000x1_1_0_0_1
      (broadcastInDim S100000x1 ![] bcast_S_S100000x1 (constant (F := F) S_ .f32 0x00000000#32)) (col (dstIdx e))
      (mulf (Host.gather gather_S100000x1_S3300000x1_S3300000x1_1_0_n_n_0_1_11 h (col (wrapIdx (srcIdx e))))
        (broadcastInDim S3300000x1 ![0] bcast_S3300000_S3300000x1_0 (edgeWeight (F := F) e))))
    (broadcastInDim S100000x1 ![0, 1] bcast_S1x1_S100000x1_0_1 (broadcastInDim S1x1 ![1] bcast_S1_S1x1_1 b))

/-- A per-column quantity repeated down all 100000 rows. -/
def rows (v : FVec F S64 .f32) : FVec F S100000x64 .f32 :=
  broadcastInDim S100000x64 ![0, 1] bcast_S1x64_S100000x64_0_1 (broadcastInDim S1x64 ![1] bcast_S64_S1x64_1 v)

/-- The sum of every column, divided by the number of rows. -/
def colMean (h : FVec F S100000x64 .f32) : FVec F S64 .f32 :=
  Host.divf (F := F) (Host.reduceAdd (F := F) h (constant (F := F) S_ .f32 0x00000000#32) reducesTo_S100000x64_S64_d0 h_S_)
    (broadcastInDim S64 ![] bcast_S_S64 (constant (F := F) S_ .f32 0x47C35000#32))

/-- The mean, over the rows, of the squared deviation from the column's mean. -/
def colVar (h : FVec F S100000x64 .f32) : FVec F S64 .f32 :=
  Host.divf (F := F)
    (Host.reduceAdd (F := F) (mulf (subf h (rows (colMean h))) (subf h (rows (colMean h))))
      (constant (F := F) S_ .f32 0x00000000#32) reducesTo_S100000x64_S64_d0 h_S_)
    (broadcastInDim S64 ![] bcast_S_S64 (constant (F := F) S_ .f32 0x47C35000#32))

/-- Every column centred at its mean, divided by the square root of its variance plus a small constant, scaled by
    `γ`, shifted by `β`, and clamped below at zero. -/
def normRelu (h : FVec F S100000x64 .f32) (γ β : FVec F S64 .f32) : FVec F S100000x64 .f32 :=
  maximumf
    (addf
      (mulf
        (mulf (subf h (rows (colMean h)))
          (rows (Host.rsqrt (F := F) (addf (colVar h) (broadcastInDim S64 ![] bcast_S_S64 (constant (F := F) S_ .f32 0x3727C5AC#32))))))
        (rows γ))
      (rows β))
    (broadcastInDim S100000x64 ![] bcast_S_S100000x64 (constant (F := F) S_ .f32 0x00000000#32))

/-- The logistic function `1 / (1 + e^(-z))`, entry by entry. -/
def sigm (z : FVec F S100000x1 .f32) : FVec F S100000x1 .f32 :=
  Host.divf (F := F) (broadcastInDim S100000x1 ![] bcast_S_S100000x1 (constant (F := F) S_ .f32 0x3F800000#32))
    (addf (broadcastInDim S100000x1 ![] bcast_S_S100000x1 (constant (F := F) S_ .f32 0x3F800000#32))
      (Host.exp (F := F) (Host.negf (F := F) z)))

/-- The first layer's output before the normalisation. -/
def layer1 (x : FVec F S100000x128 .f32) (w1 : FVec F S128x64 .f32) (b1 : FVec F S64 .f32) (e : IVec S2x3200000 32) :
    FVec F S100000x64 .f32 := conv64 (lin1 x w1) e b1

/-- The whole network: one score in `(0, 1)` per node. -/
def result (x : FVec F S100000x128 .f32) (w1 : FVec F S128x64 .f32) (b1 γ β : FVec F S64 .f32) (w2 : FVec F S64x1 .f32)
    (b2 : FVec F S1 .f32) (e : IVec S2x3200000 32) : FVec F S100000 .f32 :=
  shapeCast S100000 (sigm (conv1 (lin2 (normRelu (layer1 x w1 b1 e) γ β) w2) e b2)) shapeCasts_S100000x1_S100000

end Cert.Spec

end
-- ==== Proof.RefRun.lean ====
/-
  The run of the reference program, with its result named.

  The reference is a straight line of host operations over whole arrays. Such a program runs to the end from any
  memory, nothing faulting, and leaves in each buffer the value of the operation that writes it, computed from the
  values of the buffers it reads; an argument buffer, which no operation writes, keeps what it was launched with.
  Read at the result buffer, the composed value of the whole line is the network of `Cert.Spec.result` applied to
  the argument arrays: each operation of the line is one step of one of that module's stages.
-/
import proofs.«113359_j37572373905743_1_alg».proof.Proof.Gen.ReferenceIdeal
import proofs.«113359_j37572373905743_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's host operations, in program order; an outlined function's operations stand at its call. -/
abbrev ops : List (HloOp τ sig (Elt F)) :=
  [ nullary main_v0 (iotaInDim S100000 32 0),
    unary main_arg7 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg7 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg1 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg2 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v46 main_cst_9 main_v47 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)),
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v46 main_v51 main_v52 (subf : (⟨S100000x64, .f32⟩ : BufTy).Contents (Elt F) → (⟨S100000x64, .f32⟩ : BufTy).Contents (Elt F) → (⟨S100000x64, .f32⟩ : BufTy).Contents (Elt F)),
    binary main_v52 main_v52 main_v53 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v53 main_cst_11 main_v54 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v55 (broadcastInDim S64 ![] bcast_S_S64 : (⟨S_, .f32⟩ : BufTy).Contents (Elt F) → (⟨S64, .f32⟩ : BufTy).Contents (Elt F)),
    binary main_v54 main_v55 main_v56 (Host.divf : (⟨S64, .f32⟩ : BufTy).Contents (Elt F) → (⟨S64, .f32⟩ : BufTy).Contents (Elt F) → (⟨S64, .f32⟩ : BufTy).Contents (Elt F)),
    unary main_v49 main_v57 (broadcastInDim S1x64 ![1] bcast_S64_S1x64_1 : (⟨S64, .f32⟩ : BufTy).Contents (Elt F) → (⟨S1x64, .f32⟩ : BufTy).Contents (Elt F)),
    unary main_v57 main_v58 (broadcastInDim S100000x64 ![0, 1] bcast_S1x64_S100000x64_0_1 : (⟨S1x64, .f32⟩ : BufTy).Contents (Elt F) → (⟨S100000x64, .f32⟩ : BufTy).Contents (Elt F)),
    binary main_v46 main_v58 main_v59 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v60 (broadcastInDim S64 ![] bcast_S_S64 : (⟨S_, .f32⟩ : BufTy).Contents (Elt F) → (⟨S64, .f32⟩ : BufTy).Contents (Elt F)),
    binary main_v56 main_v60 main_v61 (addf : (⟨S64, .f32⟩ : BufTy).Contents (Elt F) → (⟨S64, .f32⟩ : BufTy).Contents (Elt F) → (⟨S64, .f32⟩ : BufTy).Contents (Elt F)),
    unary main_v61 main_v62 (Host.rsqrt : (⟨S64, .f32⟩ : BufTy).Contents (Elt F) → (⟨S64, .f32⟩ : BufTy).Contents (Elt F)),
    unary main_v62 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v59 main_v64 main_v65 (mulf : (⟨S100000x64, .f32⟩ : BufTy).Contents (Elt F) → (⟨S100000x64, .f32⟩ : BufTy).Contents (Elt F) → (⟨S100000x64, .f32⟩ : BufTy).Contents (Elt F)),
    unary main_arg3 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (mulf : (⟨S100000x64, .f32⟩ : BufTy).Contents (Elt F) → (⟨S100000x64, .f32⟩ : BufTy).Contents (Elt F) → (⟨S100000x64, .f32⟩ : BufTy).Contents (Elt F)),
    unary main_arg4 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v71) (TRef.of (T := ⟨S100000x64, .f32⟩) main_call1_v0) (TRef.of (T := ⟨S100000x64, .f32⟩) main_v72) maximumf,
    binary main_v72 main_arg5 main_v73 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    nullary main_c_14 (constantI S_ 32 0#32),
    unary main_c_14 main_v74 (broadcastInDim S3300000 ![] bcast_S_S3300000 : (⟨S_, .i32⟩ : BufTy).Contents (Elt F) → (⟨S3300000, .i32⟩ : BufTy).Contents (Elt F)),
    binary main_v3 main_v74 main_v75 (cmpi .slt : (⟨S3300000, .i32⟩ : BufTy).Contents (Elt F) → (⟨S3300000, .i32⟩ : BufTy).Contents (Elt F) → (⟨S3300000, .i1⟩ : BufTy).Contents (Elt F)),
    nullary main_c_15 (constantI S_ 32 100000#32),
    unary main_c_15 main_v76 (broadcastInDim S3300000 ![] bcast_S_S3300000 : (⟨S_, .i32⟩ : BufTy).Contents (Elt F) → (⟨S3300000, .i32⟩ : BufTy).Contents (Elt F)),
    binary main_v3 main_v76 main_v77 (addi : (⟨S3300000, .i32⟩ : BufTy).Contents (Elt F) → (⟨S3300000, .i32⟩ : BufTy).Contents (Elt F) → (⟨S3300000, .i32⟩ : BufTy).Contents (Elt F)),
    ternary main_v75 main_v77 main_v3 main_v78 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v78 main_v79 (broadcastInDim S3300000x1 ![0] bcast_S3300000_S3300000x1_0 : (⟨S3300000, .i32⟩ : BufTy).Contents (Elt F) → (⟨S3300000x1, .i32⟩ : BufTy).Contents (Elt F)),
    binary main_v73 main_v79 main_v80 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v29 main_v81 (broadcastInDim S3300000x1 ![0] bcast_S3300000_S3300000x1_0 : (⟨S3300000, .f32⟩ : BufTy).Contents (Elt F) → (⟨S3300000x1, .f32⟩ : BufTy).Contents (Elt F)),
    binary main_v80 main_v81 main_v82 (mulf : (⟨S3300000x1, .f32⟩ : BufTy).Contents (Elt F) → (⟨S3300000x1, .f32⟩ : BufTy).Contents (Elt F) → (⟨S3300000x1, .f32⟩ : BufTy).Contents (Elt F)),
    nullary main_cst_16 (constant S_ .f32 0x00000000#32),
    unary main_cst_16 main_v83 (broadcastInDim S100000x1 ![] bcast_S_S100000x1 : (⟨S_, .f32⟩ : BufTy).Contents (Elt F) → (⟨S100000x1, .f32⟩ : BufTy).Contents (Elt F)),
    unary main_v6 main_v84 (broadcastInDim S3300000x1 ![0] bcast_S3300000_S3300000x1_0 : (⟨S3300000, .i32⟩ : BufTy).Contents (Elt F) → (⟨S3300000x1, .i32⟩ : BufTy).Contents (Elt F)),
    ternary main_v83 main_v84 main_v82 main_v85 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg6 main_v86 (broadcastInDim S1x1 ![1] bcast_S1_S1x1_1 : (⟨S1, .f32⟩ : BufTy).Contents (Elt F) → (⟨S1x1, .f32⟩ : BufTy).Contents (Elt F)),
    unary main_v86 main_v87 (broadcastInDim S100000x1 ![0, 1] bcast_S1x1_S100000x1_0_1 : (⟨S1x1, .f32⟩ : BufTy).Contents (Elt F) → (⟨S100000x1, .f32⟩ : BufTy).Contents (Elt F)),
    binary main_v85 main_v87 main_v88 (addf : (⟨S100000x1, .f32⟩ : BufTy).Contents (Elt F) → (⟨S100000x1, .f32⟩ : BufTy).Contents (Elt F) → (⟨S100000x1, .f32⟩ : BufTy).Contents (Elt F)),
    unary main_v88 main_v89 (Host.negf : (⟨S100000x1, .f32⟩ : BufTy).Contents (Elt F) → (⟨S100000x1, .f32⟩ : BufTy).Contents (Elt F)),
    unary main_v89 main_v90 (Host.exp : (⟨S100000x1, .f32⟩ : BufTy).Contents (Elt F) → (⟨S100000x1, .f32⟩ : BufTy).Contents (Elt F)),
    nullary main_cst_17 (constant S_ .f32 0x3F800000#32),
    unary main_cst_17 main_v91 (broadcastInDim S100000x1 ![] bcast_S_S100000x1 : (⟨S_, .f32⟩ : BufTy).Contents (Elt F) → (⟨S100000x1, .f32⟩ : BufTy).Contents (Elt F)),
    binary main_v91 main_v90 main_v92 (addf : (⟨S100000x1, .f32⟩ : BufTy).Contents (Elt F) → (⟨S100000x1, .f32⟩ : BufTy).Contents (Elt F) → (⟨S100000x1, .f32⟩ : BufTy).Contents (Elt F)),
    nullary main_cst_18 (constant S_ .f32 0x3F800000#32),
    unary main_cst_18 main_v93 (broadcastInDim S100000x1 ![] bcast_S_S100000x1 : (⟨S_, .f32⟩ : BufTy).Contents (Elt F) → (⟨S100000x1, .f32⟩ : BufTy).Contents (Elt F)),
    binary main_v93 main_v92 main_v94 (Host.divf : (⟨S100000x1, .f32⟩ : BufTy).Contents (Elt F) → (⟨S100000x1, .f32⟩ : BufTy).Contents (Elt F) → (⟨S100000x1, .f32⟩ : BufTy).Contents (Elt F)),
    reshape main_v94 main_v95 rfl shapeCasts_S100000x1_S100000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

set_option maxRecDepth 8192 in
set_option maxHeartbeats 48400000 in
/-- From any memory with zero counters, every weakly fair execution of the reference terminates, nothing
    faulting, with the result buffer holding the network's value of the argument arrays and every argument buffer
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = Cert.Spec.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v95).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.Finite.lean ====
/-
  Finiteness. The one algebraic law this certificate uses — the mean of the squared deviations from the mean is the mean
  of the squares minus the squared mean — is a law of the real numbers; on the extended reals it fails where an infinity
  occurs. This module shows that no infinity occurs where the law is applied: if the features, the first layer's matrix
  and its bias are arrays of real numbers (which the precondition says: every entry has absolute value below `+∞`), then
  every entry of the first layer's output is a real number.

  The argument never looks at which entries the edge list selects: sums, products, finite sums, entries picked out of
  an array, and the reciprocal square root of a positive number all stay within the reals.
-/
import Idealize.ShloMosaic.PureOps.Ideal.Laws
import Idealize.ShloMosaic.Lib.ReduceAll
import Idealize.ShloMosaic.Lib.ValueIdx
import proofs.«113359_j37572373905743_1_alg».proof.Proof.Spec
import proofs.«113359_j37572373905743_1_alg».proof.Pre_finite_inputs
import proofs.«113359_j37572373905743_1_alg».proof.Defs

noncomputable section

namespace Cert.Finite

open Idealize.ShloMosaic

/-! ## Real numbers among the extended reals, and what keeps an array real -/

/-- An extended real that is an ordinary real number (neither infinity). -/
def IsRealNum (x : EReal) : Prop := ∃ r : ℝ, x = (r : EReal)

/-- An array of extended reals every entry of which is an ordinary real number. -/
def IsReal {ι : Type} (v : ι → EReal) : Prop := ∀ i, IsRealNum (v i)

theorem isRealNum_zero : IsRealNum 0 := ⟨0, EReal.coe_zero.symm⟩

theorem isRealNum_one : IsRealNum 1 := ⟨1, EReal.coe_one.symm⟩

/-- The sum of two reals is a real. -/
theorem IsRealNum.add {x y : EReal} : IsRealNum x → IsRealNum y → IsRealNum (x + y)
  | ⟨a, ha⟩, ⟨b, hb⟩ => ⟨a + b, by rw [ha, hb, EReal.coe_add]⟩

/-- The product of two reals is a real. -/
theorem IsRealNum.mul {x y : EReal} : IsRealNum x → IsRealNum y → IsRealNum (x * y)
  | ⟨a, ha⟩, ⟨b, hb⟩ => ⟨a * b, by rw [ha, hb, EReal.coe_mul]⟩

/-- A finite sum of reals is a real: by induction on the index set, from the two facts above. -/
theorem isRealNum_sum {ι : Type} (s : Finset ι) (f : ι → EReal) (h : ∀ i ∈ s, IsRealNum (f i)) :
    IsRealNum (∑ i ∈ s, f i) := by
  classical
  induction s using Finset.induction_on with
  | empty => rw [Finset.sum_empty]; exact isRealNum_zero
  | insert a s ha ih =>
    rw [Finset.sum_insert ha]
    exact (h a (Finset.mem_insert_self a s)).add (ih fun i hi => h i (Finset.mem_insert_of_mem hi))

/-- The reciprocal square root of a POSITIVE real is a real, `(√r)⁻¹`; only at zero (where it is `+∞`), below zero
    and at the infinities does it leave the reals. -/
theorem isRealNum_rsqrt {x : EReal} (hx : IsRealNum x) (hpos : 0 < x) : IsRealNum (Ideal.rsqrt x) := by
  obtain ⟨r, rfl⟩ := hx
  have hr : 0 < r := EReal.coe_pos.1 hpos
  rw [Ideal.rsqrt_coe, if_neg (not_lt.2 hr.le), if_neg hr.ne']
  exact ⟨_, rfl⟩

/-- An extended real whose absolute value `max x (-x)` is below `+∞` is a real: `+∞` fails it at once, and `-∞` fails it
    because its negation is `+∞`. -/
theorem isRealNum_of_abs_lt_top {x : EReal} (h : max x (-x) < ⊤) : IsRealNum x := by
  induction x using EReal.rec with
  | bot => simp at h
  | coe r => exact ⟨r, rfl⟩
  | top => simp at h

/-- The pattern `0x7F800000` denotes `+∞`. -/
theorem ofBits_inf : Ideal.ofBits .f32 0x7F800000#32 = ⊤ := by
  simp [Ideal.ofBits, Ideal.ieee]

/-- The pattern `0x3F800000` denotes `1`. -/
theorem ofBits_one : Ideal.ofBits .f32 0x3F800000#32 = 1 := by
  simp [Ideal.ofBits, Ideal.ieee, -EReal.coe_mul]; norm_num

/-- A gather reads entries of its operand, whatever the indices: of a real array it is real. -/
theorem isReal_gather {s si t : Shape} {w : Nat} (d : GatherDims s si t) (x : s.Idx → EReal) (idx : IVec si w)
    (hx : IsReal x) : IsReal (Host.gather d x idx) :=
  fun j => hx (d.operandIdx j idx)

/-- An accumulating scatter leaves at each index the operand's entry plus the finite sum of the updates that land
    there: of a real operand and real updates it is real. -/
theorem isReal_scatterAdd {s si u : Shape} {w : Nat} {φ : FTy} (d : ScatterDims s si u) (x : FVec Ideal s φ) (idx : IVec si w)
    (upd : FVec Ideal u φ) (hx : IsReal x) (hu : IsReal upd) : IsReal (Host.scatterAdd d x idx upd) :=
  fun i => IsRealNum.add (hx i) (isRealNum_sum _ _ fun j _ => hu j)

/-- A broadcast repeats entries of its operand: of a real array it is real. -/
theorem isReal_broadcastInDim {s t : Shape} (dims : Fin s.rank → Fin t.rank) (h : s.BroadcastsInDim t dims)
    (x : s.Idx → EReal) (hx : IsReal x) : IsReal (broadcastInDim t dims h x) :=
  fun _ => hx _

/-- The constant array of zeros is real. -/
theorem isReal_zeros (s : Shape) : IsReal (constant (F := Ideal) s .f32 0x00000000#32) :=
  fun _ => by
    show IsRealNum (Ideal.ofBits .f32 0x00000000#32)
    rw [Ideal.ofBits_zero_f32]; exact isRealNum_zero

/-- The constant array of ones is real. -/
theorem isReal_ones (s : Shape) : IsReal (constant (F := Ideal) s .f32 0x3F800000#32) :=
  fun _ => by
    show IsRealNum (Ideal.ofBits .f32 0x3F800000#32)
    rw [ofBits_one]; exact isRealNum_one

/-- The entrywise product of two real arrays is real. -/
theorem isReal_mulf {s : Shape} {φ : FTy} (x y : FVec Ideal s φ) (hx : IsReal x) (hy : IsReal y) : IsReal (mulf x y) :=
  fun i => IsRealNum.mul (hx i) (hy i)

/-- The entrywise sum of two real arrays is real. -/
theorem isReal_addf {s : Shape} {φ : FTy} (x y : FVec Ideal s φ) (hx : IsReal x) (hy : IsReal y) : IsReal (addf x y) :=
  fun i => IsRealNum.add (hx i) (hy i)

/-- A matrix product's entry is a finite sum of products of entries: of real matrices it is real. -/
theorem isReal_dotGeneral {sl sr so : Shape} {φ₁ φ₂ : FTy} (d : DotDims sl sr so) (prec : Option ContractPrecision)
    (x : FVec Ideal sl φ₁) (w : FVec Ideal sr φ₂) (hx : IsReal x) (hw : IsReal w) :
    IsReal (Host.dotGeneral (F := Ideal) d prec x w) := by
  intro j
  show IsRealNum (FloatOps.dotGeneral d prec .single x w j)
  rw [Ideal.dotGeneral_apply]
  exact isRealNum_sum _ _ fun k _ => IsRealNum.mul (hx _) (hw _)

/-- `x^(-1/2)` where `x > 0` and `0` elsewhere, of a real array `x`: real, since where the comparison holds `x` is a
    positive real, and elsewhere the entry is the literal `0`. -/
theorem isReal_invSqrt_where_pos {s : Shape} (x z₁ z₂ : FVec Ideal s .f32) (hx : IsReal x) (h₁ : ∀ i, z₁ i = 0) (h₂ : ∀ i, z₂ i = 0) :
    IsReal (select (cmpf .ogt x z₁) (Host.rsqrt x) z₂) := by
  intro i
  show IsRealNum (if Ideal.cmp .ogt (x i) (z₁ i) = 1 then Ideal.rsqrt (x i) else z₂ i)
  by_cases hpos : 0 < x i
  · have hc : Ideal.cmp .ogt (x i) (z₁ i) = 1 := by simp [Ideal.cmp, h₁ i, hpos]
    rw [if_pos hc]
    exact isRealNum_rsqrt (hx i) hpos
  · have hc : ¬ Ideal.cmp .ogt (x i) (z₁ i) = 1 := by simp [Ideal.cmp, h₁ i, hpos]
    rw [if_neg hc, h₂ i]
    exact isRealNum_zero

/-! ## The first layer's output is real

Stage by stage, following the definition of the convolution: the degrees are finite sums of ones; the inverse square
roots of the positive degrees are real and the other entries are `0`; an edge's weight is a product of two of those; the
linear map's entries are finite sums of products of the (real) features and matrix entries; the convolution gathers
rows of that, multiplies them by the weights, adds finitely many of them into each row of a zero array, and adds the
bias. Which entries the index arrays select plays no part. -/

open Cert.ReferenceIdeal in
/-- Every node's degree is a real: a finite sum of ones added to zero. -/
theorem degree_real (e : IVec S2x3200000 32) : IsReal (Cert.Spec.degree (F := Ideal) e) := by
  unfold Cert.Spec.degree
  exact isReal_scatterAdd _ _ _ _ (isReal_broadcastInDim _ _ _ (isReal_zeros _)) (isReal_broadcastInDim _ _ _ (isReal_ones _))

open Cert.ReferenceIdeal in
/-- `degree^(-1/2)` where the degree is positive, `0` elsewhere: real at every node. -/
theorem invSqrtDeg_real (e : IVec S2x3200000 32) : IsReal (Cert.Spec.invSqrtDeg (F := Ideal) e) := by
  unfold Cert.Spec.invSqrtDeg
  exact isReal_invSqrt_where_pos _ _ _ (degree_real e) (fun _ => Ideal.ofBits_zero_f32) (fun _ => Ideal.ofBits_zero_f32)

open Cert.ReferenceIdeal in
/-- Every edge's weight is a real: the product of the two quantities above at the edge's ends. -/
theorem edgeWeight_real (e : IVec S2x3200000 32) : IsReal (Cert.Spec.edgeWeight (F := Ideal) e) := by
  unfold Cert.Spec.edgeWeight
  exact isReal_mulf _ _ (isReal_gather _ _ _ (invSqrtDeg_real e)) (isReal_gather _ _ _ (invSqrtDeg_real e))

open Cert.ReferenceIdeal in
/-- The first linear map of real features by a real matrix is real. -/
theorem lin1_real (x0 : FVec Ideal S100000x128 .f32) (x1 : FVec Ideal S128x64 .f32) (h0 : IsReal x0) (h1 : IsReal x1) :
    IsReal (Cert.Spec.lin1 (F := Ideal) x0 x1) := by
  unfold Cert.Spec.lin1
  exact isReal_dotGeneral _ _ _ _ h0 h1

open Cert.ReferenceIdeal in
/-- A graph convolution of a real feature array with a real bias is real. -/
theorem conv64_real (h : FVec Ideal S100000x64 .f32) (e : IVec S2x3200000 32) (b : FVec Ideal S64 .f32)
    (hh : IsReal h) (hb : IsReal b) : IsReal (Cert.Spec.conv64 (F := Ideal) h e b) := by
  unfold Cert.Spec.conv64
  refine isReal_addf _ _ (isReal_scatterAdd _ _ _ _ (isReal_broadcastInDim _ _ _ (isReal_zeros _)) ?_)
    (isReal_broadcastInDim _ _ _ (isReal_broadcastInDim _ _ _ hb))
  exact isReal_mulf _ _ (isReal_gather _ _ _ hh)
    (isReal_broadcastInDim _ _ _ (isReal_broadcastInDim _ _ _ (edgeWeight_real e)))

open Cert.ReferenceIdeal in
/-- The first layer's output, before the normalisation, of real features, a real matrix and a real bias: every entry
    is a real number, whatever the edges. -/
theorem agg1_real (x0 : FVec Ideal S100000x128 .f32) (x1 : FVec Ideal S128x64 .f32) (x2 : FVec Ideal S64 .f32)
    (e : IVec S2x3200000 32) (h0 : IsReal x0) (h1 : IsReal x1) (h2 : IsReal x2) :
    IsReal (Cert.Spec.conv64 (F := Ideal) (Cert.Spec.lin1 (F := Ideal) x0 x1) e x2) :=
  conv64_real _ e x2 (lin1_real x0 x1 h0 h1) h2

/-! ## From the precondition to real arguments

The precondition is a conjunction, one conjunct per float argument, each saying "every entry has absolute value below
`+∞`". An extended real passes that test exactly when it is neither infinity, that is, when it is a real. -/

/-- One entry's test: `|x| < +∞`, the bound spelled by its bit pattern, came out true; so `x` is a real. -/
theorem isRealNum_of_finite_test {x : EReal}
    (h : Ideal.cmp .olt (max x (-x)) (Ideal.ofBits .f32 0x7F800000#32) = 1#1) : IsRealNum x := by
  rw [ofBits_inf] at h
  refine isRealNum_of_abs_lt_top ?_
  by_contra hn
  simp [Ideal.cmp, hn] at h

/-- An array with no axes has exactly one index. -/
local instance : Subsingleton Cert.Pre_finite_inputs.S_.Idx := ⟨fun a b => funext fun d => d.elim0⟩

/-- One argument's conjunct: the conjunction over ALL entries of the test is true, so each entry passes it. -/
theorem isReal_of_all_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1) : IsReal a :=
  fun i => isRealNum_of_finite_test (Host.reduce_andi_all _ _ hr hu _ e i)

open Cert.Pre_finite_inputs in
/-- The precondition holds of nine arguments: then the first three (the features, the first layer's matrix and its bias)
    are arrays of reals. The conjunction nests to the left, so the first three conjuncts are the innermost ones. -/
theorem args_real_of_pre [Cert.Pre_finite_inputs.Facts]
    (a0 : FVec Ideal S100000x128 .f32) (a1 : FVec Ideal S128x64 .f32) (a2 : FVec Ideal S64 .f32) (a3 : FVec Ideal S64 .f32)
    (a4 : FVec Ideal S64 .f32) (a5 : FVec Ideal S64x1 .f32) (a6 : FVec Ideal S1 .f32) (a7 : IVec S2x3200000 32) (a8 : IVec S100000 32)
    (h : Cert.Pre_finite_inputs.fn (F := Ideal) a0 a1 a2 a3 a4 a5 a6 a7 a8 = (fun _ => 1#1)) :
    IsReal a0 ∧ IsReal a1 ∧ IsReal a2 := by
  have h' := congrFun h ValueIdx.ix0
  dsimp only [Cert.Pre_finite_inputs.fn, Cert.Pre_finite_inputs.fn_part1] at h'
  obtain ⟨h6, -⟩ := IntOp.andi_eq_one.1 h'
  obtain ⟨h5, -⟩ := IntOp.andi_eq_one.1 h6
  obtain ⟨h4, -⟩ := IntOp.andi_eq_one.1 h5
  obtain ⟨h3, -⟩ := IntOp.andi_eq_one.1 h4
  obtain ⟨h2, e2⟩ := IntOp.andi_eq_one.1 h3
  obtain ⟨e0, e1⟩ := IntOp.andi_eq_one.1 h2
  exact ⟨isReal_of_all_finite a0 _ _ _ e0, isReal_of_all_finite a1 _ _ _ e1, isReal_of_all_finite a2 _ _ _ e2⟩

open Idealize.SL.Sem in
/-- The same read off the precondition as the certificate states it of a memory: on every device the three argument
    arrays the first layer reads are arrays of reals. -/
theorem args_real_of_Pre_KernelIdeal [Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2)) :=
  args_real_of_pre _ _ _ _ _ _ _ _ _ (hm c)

end Cert.Finite

end
-- ==== Proof.MatmulRegions.lean ====
/-
  The two matrix-product regions.

  Each of the two regions multiplies a tall array by a small matrix, row block by row block. The tall array has
  100000 rows; the region's grid has ten points, and point `t` fetches rows `10000·t … 10000·t + 9999` of the tall
  array together with the whole small matrix, forms the product of that row block with the matrix (the two factors
  are first narrowed to a shorter float format, which on exact extended reals changes nothing, and the products are
  summed onto a zero accumulator), and writes the product back over the same rows of the output array.

  Entry `(p, q)` of a block's product is `∑ k, A (p, k) * B (k, q)`, a sum over the columns of the row block, which
  are the columns of the whole array. Row `p` of block `t` is row `10000·t + p` of the array, so what point `t`
  writes back is block `t` of ONE function of the whole arrays: entry `(r, q)` of the output is
  `∑ k, A (r, k) * B (k, q)`. The ten row blocks tile the output, every row `r` lying in block `r / 10000`, so
  after the last point the output array is that function of the arrays the region found, whatever the order of the
  write-backs.

  The first region multiplies a 100000 × 128 array by a 128 × 64 matrix; the second a 100000 × 64 array by a
  64 × 1 column.
-/
import proofs.«113359_j37572373905743_1_alg».proof.Proof.Gen.KernelIdeal.Frame
import proofs.«113359_j37572373905743_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatmulRegions

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets of a whole block, however the two zeros are written. -/
theorem origin : (![0, 0] : Fin 2 → Nat) = fun _ => 0 := funext fun a => by fin_cases a <;> rfl

/-! ## The first product: 100000 × 128 by 128 × 64 -/

/-- Entry `(r, k)` of the tall factor, for an output entry in row `r`. -/
abbrev wideLeft (i : S100000x64.Idx) (k : Fin 128) : S100000x128.Idx := fun a => match a with
  | ⟨0, _⟩ => ⟨(i 0).val, (i 0).isLt⟩
  | ⟨1, _⟩ => ⟨k.val, k.isLt⟩
/-- Entry `(k, q)` of the small factor, for an output entry in column `q`. -/
abbrev wideRight (i : S100000x64.Idx) (k : Fin 128) : S128x64.Idx := fun a => match a with
  | ⟨0, _⟩ => ⟨k.val, k.isLt⟩
  | ⟨1, _⟩ => ⟨(i 1).val, (i 1).isLt⟩

/-- The product of the whole arrays: entry `(r, q)` is `∑ k, A (r, k) * B (k, q)`. -/
def wideProduct (A : S100000x128.Idx → EReal) (B : S128x64.Idx → EReal) : S100000x64.Idx → EReal :=
  fun i => ∑ k : Fin 128, A (wideLeft i k) * B (wideRight i k)

/-- The same two entries inside one row block. -/
abbrev wideBlockLeft (j : S10000x64.Idx) (k : Fin 128) : S10000x128.Idx := fun a => match a with
  | ⟨0, _⟩ => ⟨(j 0).val, (j 0).isLt⟩
  | ⟨1, _⟩ => ⟨k.val, k.isLt⟩
abbrev wideBlockRight (j : S10000x64.Idx) (k : Fin 128) : S128x64.Idx := fun a => match a with
  | ⟨0, _⟩ => ⟨k.val, k.isLt⟩
  | ⟨1, _⟩ => ⟨(j 1).val, (j 1).isLt⟩

/-- The left factor is read in the output entry's row … -/
theorem wide_lhs_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- … at the summation index's column; -/
theorem wide_lhs_col (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
/-- the right factor at the summation index's row … -/
theorem wide_rhs_row (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
/-- … in the output entry's column. -/
theorem wide_rhs_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The body's arithmetic on one row block, entry by entry: narrowing the factors changes nothing, the accumulator
    is zero, and what is left is the sum over the 128 columns of the products. -/
theorem wide_block_apply (x0 : Vec Ideal S10000x128 .f32) (x1 : Vec Ideal S128x64 .f32) (j : S10000x64.Idx) :
    k0_pay1 (F := Ideal) x0 x1 j = ∑ k : Fin 128, x0 (wideBlockLeft j k) * x1 (wideBlockRight j k) := by
  unfold k0_pay1
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = wideBlockLeft j k := funext fun a => Fin.ext (by
    match a with
    | ⟨0, _⟩ => exact wide_lhs_row _ _
    | ⟨1, _⟩ => exact (wide_lhs_col _ _).trans hk)
  have er : dot_S10000x128_S128x64_S10000x64_1_0_0_1_n_n.rhsIdx j ((ValueIdx.contrEquiv1 dot_S10000x128_S128x64_S10000x64_1_0_0_1_n_n 128 rfl rfl).symm k) = wideBlockRight j k := funext fun a => Fin.ext (by
    match a with
    | ⟨0, _⟩ => exact (wide_rhs_row _ _).trans hk
    | ⟨1, _⟩ => exact wide_rhs_col _ _)
  show x0 (dot_S10000x128_S128x64_S10000x64_1_0_0_1_n_n.lhsIdx j _) * x1 (dot_S10000x128_S128x64_S10000x64_1_0_0_1_n_n.rhsIdx j _) = _
  rw [el, er]

/-- Over the ten grid points: the tall factor's row block moves with the output's, the small factor is always
    fetched whole, and the output's row block index stays below ten, its column block fixed. -/
theorem wide_index_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every one of the ten row blocks is some grid point's. -/
theorem wide_index_onto : ∀ q : Fin 10, ∃ t : Fin cfg0.N, win0_2.index t = ![q.val, 0] :=
  (by decide +kernel : ∀ q : Fin 10, ∃ t : Fin grid0.N, win0_2.index t = ![q.val, 0])

/-- What grid point `t` writes back is block `t` of the product of the whole arrays: row `p` of the block is row
    `10000·t + p` of the tall factor, and the small factor's block is the small factor. -/
theorem wide_flushed_eq (c : Dev nD) (t : Fin cfg0.N) :
    (dat0 (F := Ideal) V c).flushed 2 t
      = ((cfg0.win 2).blk t).view.read (Elt Ideal) (wideProduct (V c main_arg0) (V c main_arg1)) := by
  show (cfg0.win 2).cut (grid0.coords t) ((dat0 (F := Ideal) V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := wide_index_facts t
  funext j
  refine (wide_block_apply (iblk0 V c 0 t) (iblk0 V c 1 t) j).trans ?_
  show _ = wideProduct (V c main_arg0) (V c main_arg1) (((cfg0.win 2).blk t).view.emb j)
  unfold wideProduct
  refine Finset.sum_congr rfl fun k _ => ?_
  have hl : ((cfg0.win 0).blk t).view.emb (wideBlockLeft j k) = wideLeft (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : ((cfg0.win 1).blk t).view.emb (wideBlockRight j k) = wideRight (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have h0 : iblk0 V c 0 t (wideBlockLeft j k) = V c main_arg0 (wideLeft (((cfg0.win 2).blk t).view.emb j) k) :=
    congrArg (V c main_arg0) hl
  have h1 : iblk0 V c 1 t (wideBlockRight j k) = V c main_arg1 (wideRight (((cfg0.win 2).blk t).view.emb j) k) :=
    congrArg (V c main_arg1) hr
  rw [h0, h1]

/-- An entry of the output is in point `t`'s block iff each coordinate is in the block's range on its axis. -/
theorem wide_mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks tile the output: row `r` lies in block `r / 10000`. -/
theorem wide_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := wide_index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [wide_mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array is the product of the arrays the region found. -/
theorem wide_array (c : Dev nD) :
    (dat0 (F := Ideal) V c).arrAt 2 cfg0.N = wideProduct (V c main_arg0) (V c main_arg1) :=
  (dat0 (F := Ideal) V c).arrAt_eq_of_cover 2 (wideProduct (V c main_arg0) (V c main_arg1))
    (fun t _ => wide_flushed_eq V c t) wide_covered

/-! ## The second product: 100000 × 64 by a 64 × 1 column -/

/-- Entry `(r, k)` of the tall factor, for an output entry in row `r`. -/
abbrev colLeft (i : S100000x1.Idx) (k : Fin 64) : S100000x64.Idx := fun a => match a with
  | ⟨0, _⟩ => ⟨(i 0).val, (i 0).isLt⟩
  | ⟨1, _⟩ => ⟨k.val, k.isLt⟩
/-- Entry `(k, q)` of the column, for an output entry in column `q` (there is one column). -/
abbrev colRight (i : S100000x1.Idx) (k : Fin 64) : S64x1.Idx := fun a => match a with
  | ⟨0, _⟩ => ⟨k.val, k.isLt⟩
  | ⟨1, _⟩ => ⟨(i 1).val, (i 1).isLt⟩

/-- The product of the whole arrays: entry `(r, q)` is `∑ k, A (r, k) * B (k, q)`. -/
def colProduct (A : S100000x64.Idx → EReal) (B : S64x1.Idx → EReal) : S100000x1.Idx → EReal :=
  fun i => ∑ k : Fin 64, A (colLeft i k) * B (colRight i k)

/-- The same two entries inside one row block. -/
abbrev colBlockLeft (j : S10000x1.Idx) (k : Fin 64) : S10000x64.Idx := fun a => match a with
  | ⟨0, _⟩ => ⟨(j 0).val, (j 0).isLt⟩
  | ⟨1, _⟩ => ⟨k.val, k.isLt⟩
abbrev colBlockRight (j : S10000x1.Idx) (k : Fin 64) : S64x1.Idx := fun a => match a with
  | ⟨0, _⟩ => ⟨k.val, k.isLt⟩
  | ⟨1, _⟩ => ⟨(j 1).val, (j 1).isLt⟩

/-- The left factor is read in the output entry's row … -/
theorem col_lhs_row (j : S10000x1.Idx) (q : dot_S10000x64_S64x1_S10000x1_1_0_0_1_n_n.contr.Idx) :
    (dot_S10000x64_S64x1_S10000x1_1_0_0_1_n_n.lhsIdx j q 0).val = (j 0).val := by
  unfold DotDims.lhsIdx
  rw [dif_neg (show ¬(0 : Fin S10000x64.rank) ∈ dot_S10000x64_S64x1_S10000x1_1_0_0_1_n_n.lhsBatch by decide),
    dif_pos (show (0 : Fin S10000x64.rank) ∈ dot_S10000x64_S64x1_S10000x1_1_0_0_1_n_n.lhsNonContracting by decide)]
  rfl
/-- … at the summation index's column; -/
theorem col_lhs_col (j : S10000x1.Idx) (q : dot_S10000x64_S64x1_S10000x1_1_0_0_1_n_n.contr.Idx) :
    (dot_S10000x64_S64x1_S10000x1_1_0_0_1_n_n.lhsIdx j q 1).val = (q ⟨0, by decide⟩).val :=
  dot_S10000x64_S64x1_S10000x1_1_0_0_1_n_n.lhsIdx_val_of_single rfl j q
/-- the column at the summation index's row … -/
theorem col_rhs_row (j : S10000x1.Idx) (q : dot_S10000x64_S64x1_S10000x1_1_0_0_1_n_n.contr.Idx) :
    (dot_S10000x64_S64x1_S10000x1_1_0_0_1_n_n.rhsIdx j q 0).val = (q ⟨0, by decide⟩).val :=
  dot_S10000x64_S64x1_S10000x1_1_0_0_1_n_n.rhsIdx_val_of_single rfl j q
/-- … in the output entry's column. -/
theorem col_rhs_col (j : S10000x1.Idx) (q : dot_S10000x64_S64x1_S10000x1_1_0_0_1_n_n.contr.Idx) :
    (dot_S10000x64_S64x1_S10000x1_1_0_0_1_n_n.rhsIdx j q 1).val = (j 1).val := by
  unfold DotDims.rhsIdx
  rw [dif_neg (show ¬(1 : Fin S64x1.rank) ∈ dot_S10000x64_S64x1_S10000x1_1_0_0_1_n_n.rhsBatch by decide),
    dif_pos (show (1 : Fin S64x1.rank) ∈ dot_S10000x64_S64x1_S10000x1_1_0_0_1_n_n.rhsNonContracting by decide)]
  rfl

/-- The body's arithmetic on one row block, entry by entry: the re-laying of the block to its own shape and the
    narrowing of the factors change nothing, the accumulator is zero, and what is left is the sum over the 64
    columns of the products. -/
theorem col_block_apply (x0 : Vec Ideal S10000x64 .f32) (x1 : Vec Ideal S64x1 .f32) (j : S10000x1.Idx) :
    k3_pay1 (F := Ideal) x0 x1 j = ∑ k : Fin 64, x0 (colBlockLeft j k) * x1 (colBlockRight j k) := by
  unfold k3_pay1
  rw [shapeCast_self]
  refine (Ideal.matmul_constant_zero_apply dot_S10000x64_S64x1_S10000x1_1_0_0_1_n_n none _ _ j).trans ?_
  rw [← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx j ((ValueIdx.contrEquiv1 dot_S10000x64_S64x1_S10000x1_1_0_0_1_n_n 64 rfl rfl).symm k) = colBlockLeft j k := funext fun a => Fin.ext (by
    match a with
    | ⟨0, _⟩ => exact col_lhs_row _ _
    | ⟨1, _⟩ => exact (col_lhs_col _ _).trans hk)
  have er : dot_S10000x64_S64x1_S10000x1_1_0_0_1_n_n.rhsIdx j ((ValueIdx.contrEquiv1 dot_S10000x64_S64x1_S10000x1_1_0_0_1_n_n 64 rfl rfl).symm k) = colBlockRight j k := funext fun a => Fin.ext (by
    match a with
    | ⟨0, _⟩ => exact (col_rhs_row _ _).trans hk
    | ⟨1, _⟩ => exact col_rhs_col _ _)
  show x0 (dot_S10000x64_S64x1_S10000x1_1_0_0_1_n_n.lhsIdx j _) * x1 (dot_S10000x64_S64x1_S10000x1_1_0_0_1_n_n.rhsIdx j _) = _
  rw [el, er]

/-- Over the ten grid points: the tall factor's row block moves with the output's, the column is always fetched
    whole, and the output's row block index stays below ten, its column block fixed. -/
theorem col_index_facts : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (0 : Fin 2) ≤ 9 ∧ win3_2.index t (1 : Fin 2) = 0 :=
  (by decide +kernel : ∀ t : Fin grid3.N, _)

/-- Every one of the ten row blocks is some grid point's. -/
theorem col_index_onto : ∀ q : Fin 10, ∃ t : Fin cfg3.N, win3_2.index t = ![q.val, 0] :=
  (by decide +kernel : ∀ q : Fin 10, ∃ t : Fin grid3.N, win3_2.index t = ![q.val, 0])

/-- What grid point `t` writes back is block `t` of the product of the whole arrays: row `p` of the block is row
    `10000·t + p` of the tall factor, and the column's block is the column. -/
theorem col_flushed_eq (c : Dev nD) (t : Fin cfg3.N) :
    (dat3 (F := Ideal) V c).flushed 2 t
      = ((cfg3.win 2).blk t).view.read (Elt Ideal) (colProduct (V c main_v60) (V c main_arg5)) := by
  show (cfg3.win 2).cut (grid3.coords t) ((dat3 (F := Ideal) V c).after 2 t) = _
  rw [after3_2]
  unfold out3_2
  rw [View.canon_unit_zero origin]
  simp only [View.ld_unit_zero (S := S10000x64) origin, View.ld_unit_zero (S := S64x1) origin]
  obtain ⟨e0, e1, e2, e3, e4, e5⟩ := col_index_facts t
  funext j
  refine (col_block_apply (iblk3 V c 0 t) (iblk3 V c 1 t) j).trans ?_
  show _ = colProduct (V c main_v60) (V c main_arg5) (((cfg3.win 2).blk t).view.emb j)
  unfold colProduct
  refine Finset.sum_congr rfl fun k _ => ?_
  have hl : ((cfg3.win 0).blk t).view.emb (colBlockLeft j k) = colLeft (((cfg3.win 2).blk t).view.emb j) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  have hr : ((cfg3.win 1).blk t).view.emb (colBlockRight j k) = colRight (((cfg3.win 2).blk t).view.emb j) k := by
    funext a; apply Fin.ext
    match a with
    | ⟨0, _⟩ => show win3_1.index t (0 : Fin 2) * 64 + 1 * k.val = k.val; omega
    | ⟨1, _⟩ => show win3_1.index t (1 : Fin 2) * 1 + 1 * (j 1).val = win3_2.index t (1 : Fin 2) * 1 + 1 * (j 1).val; omega
  have h0 : iblk3 V c 0 t (colBlockLeft j k) = V c main_v60 (colLeft (((cfg3.win 2).blk t).view.emb j) k) :=
    congrArg (V c main_v60) hl
  have h1 : iblk3 V c 1 t (colBlockRight j k) = V c main_arg5 (colRight (((cfg3.win 2).blk t).view.emb j) k) :=
    congrArg (V c main_arg5) hr
  rw [h0, h1]

/-- An entry of the output is in point `t`'s block iff each coordinate is in the block's range on its axis. -/
theorem col_mem_block (t : Fin cfg3.N) (i : S100000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v61).slice (win3_2.rect t)).set ↔ _
  rw [View.set_slice_whole, Rect.mem_set_unit]
  exact Iff.rfl

/-- The ten row blocks tile the output: row `r` lies in block `r / 10000`. -/
theorem col_covered (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ := col_index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [col_mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 1 ≤ (i 1).val ∧ (i 1).val < win3_2.index t (1 : Fin 2) * 1 + 1; omega

/-- After the region the output array is the product of the arrays the region found. -/
theorem col_array (c : Dev nD) :
    (dat3 (F := Ideal) V c).arrAt 2 cfg3.N = colProduct (V c main_v60) (V c main_arg5) :=
  (dat3 (F := Ideal) V c).arrAt_eq_of_cover 2 (colProduct (V c main_v60) (V c main_arg5))
    (fun t _ => col_flushed_eq V c t) col_covered

/-! ## The products as the reference's linear maps -/

/-- For the whole-array contraction that the reference's first linear map names: the left factor is read in the
    output entry's row … -/
theorem lin1_lhs_row (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide),
    dif_pos (show (0 : Fin S100000x128.rank) ∈ Cert.ReferenceIdeal.dot_S100000x128_S128x64_S100000x64_1_0_0_1_n_n.lhsNonContracting by decide)]
  rfl
/-- … at the summation index's column; -/
theorem lin1_lhs_col (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
/-- the right factor at the summation index's row … -/
theorem lin1_rhs_row (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
/-- … in the output entry's column. -/
theorem lin1_rhs_col (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide),
    dif_pos (show (1 : Fin S128x64.rank) ∈ Cert.ReferenceIdeal.dot_S100000x128_S128x64_S100000x64_1_0_0_1_n_n.rhsNonContracting by decide)]
  rfl

/-- The reference's first linear map, on exact extended reals, is the same sum of products entry by entry. -/
theorem wideProduct_eq_lin1 (A : S100000x128.Idx → EReal) (B : S128x64.Idx → EReal) :
    wideProduct A B = Cert.Spec.lin1 (F := Ideal) A B := by
  funext i
  unfold Cert.Spec.lin1 wideProduct
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = wideLeft i k := funext fun a => Fin.ext (by
    match a with
    | ⟨0, _⟩ => exact lin1_lhs_row _ _
    | ⟨1, _⟩ => exact (lin1_lhs_col _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = wideRight i k := funext fun a => Fin.ext (by
    match a with
    | ⟨0, _⟩ => exact (lin1_rhs_row _ _).trans hk
    | ⟨1, _⟩ => exact lin1_rhs_col _ _)
  rw [el, er]

/-- For the whole-array contraction that the reference's second linear map names: the left factor is read in the
    output entry's row … -/
theorem lin2_lhs_row (i : S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 0).val = (i 0).val := by
  unfold DotDims.lhsIdx
  rw [dif_neg (show ¬(0 : Fin S100000x64.rank) ∈ Cert.ReferenceIdeal.dot_S100000x64_S64x1_S100000x1_1_0_0_1_n_n.lhsBatch by decide),
    dif_pos (show (0 : Fin S100000x64.rank) ∈ Cert.ReferenceIdeal.dot_S100000x64_S64x1_S100000x1_1_0_0_1_n_n.lhsNonContracting by decide)]
  rfl
/-- … at the summation index's column; -/
theorem lin2_lhs_col (i : S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 1).val = (q ⟨0, by decide⟩).val :=
  Cert.ReferenceIdeal.dot_S100000x64_S64x1_S100000x1_1_0_0_1_n_n.lhsIdx_val_of_single rfl i q
/-- the column at the summation index's row … -/
theorem lin2_rhs_row (i : S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 0).val = (q ⟨0, by decide⟩).val :=
  Cert.ReferenceIdeal.dot_S100000x64_S64x1_S100000x1_1_0_0_1_n_n.rhsIdx_val_of_single rfl i q
/-- … in the output entry's column. -/
theorem lin2_rhs_col (i : S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 1).val = (i 1).val := by
  unfold DotDims.rhsIdx
  rw [dif_neg (show ¬(1 : Fin S64x1.rank) ∈ Cert.ReferenceIdeal.dot_S100000x64_S64x1_S100000x1_1_0_0_1_n_n.rhsBatch by decide),
    dif_pos (show (1 : Fin S64x1.rank) ∈ Cert.ReferenceIdeal.dot_S100000x64_S64x1_S100000x1_1_0_0_1_n_n.rhsNonContracting by decide)]
  rfl

/-- The reference's second linear map, on exact extended reals, is the same sum of products entry by entry. -/
theorem colProduct_eq_lin2 (A : S100000x64.Idx → EReal) (B : S64x1.Idx → EReal) :
    colProduct A B = Cert.Spec.lin2 (F := Ideal) A B := by
  funext i
  unfold Cert.Spec.lin2 colProduct
  simp only [Host.dotGeneral]
  rw [Ideal.dotGeneral_apply, ← Equiv.sum_comp (ValueIdx.contrEquiv1 Cert.ReferenceIdeal.dot_S100000x64_S64x1_S100000x1_1_0_0_1_n_n 64 rfl rfl).symm]
  refine Finset.sum_congr rfl fun k _ => ?_
  have hk := ValueIdx.contrEquiv1_symm_val Cert.ReferenceIdeal.dot_S100000x64_S64x1_S100000x1_1_0_0_1_n_n 64 rfl rfl k
  have el : Cert.ReferenceIdeal.dot_S100000x64_S64x1_S100000x1_1_0_0_1_n_n.lhsIdx i ((ValueIdx.contrEquiv1 Cert.ReferenceIdeal.dot_S100000x64_S64x1_S100000x1_1_0_0_1_n_n 64 rfl rfl).symm k) = colLeft i k := funext fun a => Fin.ext (by
    match a with
    | ⟨0, _⟩ => exact lin2_lhs_row _ _
    | ⟨1, _⟩ => exact (lin2_lhs_col _ _).trans hk)
  have er : Cert.ReferenceIdeal.dot_S100000x64_S64x1_S100000x1_1_0_0_1_n_n.rhsIdx i ((ValueIdx.contrEquiv1 Cert.ReferenceIdeal.dot_S100000x64_S64x1_S100000x1_1_0_0_1_n_n 64 rfl rfl).symm k) = colRight i k := funext fun a => Fin.ext (by
    match a with
    | ⟨0, _⟩ => exact (lin2_rhs_row _ _).trans hk
    | ⟨1, _⟩ => exact lin2_rhs_col _ _)
  rw [el, er]

/-! ## The two regions against the reference's stages -/

/-- After the first matrix-product region its output array is the reference's first linear map of the two arrays
    the region found. -/
theorem region0_array (c : Dev nD) :
    (dat0 (F := Ideal) V c).arrAt 2 cfg0.N = Cert.Spec.lin1 (F := Ideal) (V c main_arg0) (V c main_arg1) :=
  (wide_array V c).trans (wideProduct_eq_lin1 _ _)

/-- After the second matrix-product region its output array is the reference's second linear map of the two
    arrays the region found. -/
theorem region3_array (c : Dev nD) :
    (dat3 (F := Ideal) V c).arrAt 2 cfg3.N = Cert.Spec.lin2 (F := Ideal) (V c main_v60) (V c main_arg5) :=
  (col_array V c).trans (colProduct_eq_lin2 _ _)

end Cert.KernelIdeal.MatmulRegions

end
-- ==== Proof.StatsRegion.lean ====
import proofs.«113359_j37572373905743_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

/-!
# The column sums of the statistics region

The region walks a 100000 × 64 array `A` in ten row blocks of 10000 rows. Its two outputs are single
1 × 64 blocks that stay in place from one grid point to the next: at the first point both are set to
zero, and at every point the first output gains, column by column, the sum of the current block's
entries, the second the sum of their squares. After the last point the first output therefore holds at
column `j` the sum of `A (k, j)` over all 100000 rows `k`, and the second the sum of `A (k, j) * A (k, j)`.

The proof has four parts.
* Sums of the first `n` rows of a column, with rows beyond the array counted as zero, so that "the
  rows of blocks `0 … t`" is a sum over a range of naturals that grows by one block at a time. On the
  extended reals addition is associative and commutative with neutral element `0`, so splitting a range
  sum into consecutive stretches needs no finiteness of the entries.
* What one grid point does to an output entry: it adds to the carried entry a sum over the 10000 rows
  of the block (the reduction over the row axis, read at a column), and the carried entry is `0` at the
  first point.
* Induction on the grid point: after point `n` the first output's entry at column `j` is the sum of
  the first `10000 * (n + 1)` rows of column `j`; likewise for the squares.
* The only write-back happens after the last point and writes the one block, which is the whole
  1 × 64 array.
-/

noncomputable section

open Idealize.ShloMosaic Idealize.ShloMosaic.TcCoe Idealize.SL.Sem Idealize.ShloMosaic.Tactic
open Idealize.ShloMosaic.Pipeline (Dat)
open Idealize.ShloMosaic.ValueIdx
open scoped BigOperators

namespace Cert.KernelIdeal.StatsRegion

open Cert.KernelIdeal Cert.KernelIdeal.Gen

/-! ## Sums of the first rows of a column -/

/-- Row `k`, column `j` of the 100000 × 64 array. -/
def rowCol (k : Fin 100000) (j : Fin 64) : S100000x64.Idx := fun a => match a with
  | ⟨0, _⟩ => ⟨k.val, k.isLt⟩
  | ⟨1, _⟩ => ⟨j.val, j.isLt⟩

/-- Column `j` of `f` as a sequence over all naturals: the array's entry in the rows it has, zero beyond. -/
def column (f : S100000x64.Idx → EReal) (j : Fin 64) (r : ℕ) : EReal :=
  if h : r < 100000 then f (rowCol ⟨r, h⟩ j) else 0

/-- The sum of the first `n` rows of column `j`. -/
def firstRows (f : S100000x64.Idx → EReal) (j : Fin 64) (n : ℕ) : EReal :=
  ∑ r ∈ Finset.range n, column f j r

/-- No rows sum to zero. -/
theorem firstRows_zero (f : S100000x64.Idx → EReal) (j : Fin 64) : firstRows f j 0 = 0 := by
  unfold firstRows
  rw [Finset.range_zero, Finset.sum_empty]

/-- One more block of 10000 rows: the sum over the rows of blocks `0 … t` is the sum over the blocks before
    `t` plus the sum over block `t`, whose rows are `10000 * t + r` for `r < 10000`. -/
theorem firstRows_block (f : S100000x64.Idx → EReal) (j : Fin 64) (t : ℕ) :
    firstRows f j (10000 * (t + 1)) = firstRows f j (10000 * t) + ∑ r : Fin 10000, column f j (10000 * t + r.val) := by
  unfold firstRows
  rw [show 10000 * (t + 1) = 10000 * t + 10000 from by ring, Finset.sum_range_add]
  exact congrArg _ (Finset.sum_range fun x => column f j (10000 * t + x))

/-- All 100000 rows: the sum over the column. -/
theorem firstRows_all (f : S100000x64.Idx → EReal) (j : Fin 64) :
    firstRows f j 100000 = ∑ k : Fin 100000, f (rowCol k j) := by
  unfold firstRows
  rw [Finset.sum_range]
  exact Finset.sum_congr rfl fun k _ => dif_pos k.isLt

/-- Every index of a 1 × 64 block is row 0 at its column. -/
theorem unit_row (y : S1x64.Idx) : y = ix2 (n0 := 1) (n1 := 64) 0 (y 1) := by
  funext a
  match a with
  | ⟨0, _⟩ => exact Fin.ext (by have h : (y 0).val < 1 := (y 0).isLt; show (y 0).val = 0; omega)
  | ⟨1, _⟩ => rfl

/-! ## One grid point, at an entry -/

theorem hz : (![0, 0] : Fin 2 → Nat) = fun _ => 0 := funext fun a => by fin_cases a <;> rfl

/-- The sum over the row axis of a 10000 × 64 block, laid out as a 1 × 64 block, is at column `j` the
    sum over the 10000 rows `r` of the block's entry `(r, j)`. -/
theorem colsum_cast (src : FVec Ideal ⟨2, ![10000, 64]⟩ .f32)
    (hr : Shape.Reduces ⟨2, ![10000, 64]⟩ [0] ⟨1, ![64]⟩) (hφ : FKind.Formats .f32)
    (hacc : (0x00000000#32 : BitVec 32) = 0x00000000#32)
    (hc : Shape.ShapeCasts ⟨1, ![64]⟩ ⟨2, ![1, 64]⟩) (j : Fin 64) :
    shapeCast ⟨2, ![1, 64]⟩ (multiReduction .add [0] ⟨1, ![64]⟩ src 0x00000000#32 hr hφ hacc) hc (ix2 (0 : Fin 1) j)
      = ∑ r : Fin 10000, src (ix2 r j) := by
  refine (shapeCast_addUnit_apply ![64] _ hc (ix2 (0 : Fin 1) j)).trans ?_
  refine (Ideal.multiReduction_add_single src 0x00000000#32 hr hφ hacc _).trans ?_
  exact Finset.sum_congr rfl fun r _ => congrArg src (funext fun a => Fin.ext (by match a with | ⟨0, _⟩ => rfl | ⟨1, _⟩ => rfl))

/-- The first output's new entry at column `j`: the carried entry plus the block's column sum. -/
theorem pay_sum_apply (x : Vec Ideal S10000x64 .f32) (xo : Vec Ideal S1x64 .f32) (j : Fin 64) :
    k1_pay4 (F := Ideal) x xo (ix2 (0 : Fin 1) j) = xo (ix2 (0 : Fin 1) j) + ∑ r : Fin 10000, x (ix2 r j) := by
  unfold k1_pay4 k1_pay3
  show shapeCast S1x64 xo shapeCasts_S1x64_S1x64 (ix2 (0 : Fin 1) j)
      + shapeCast S1x64 (multiReduction (F := Ideal) .add [0] S64 (shapeCast S10000x64 x shapeCasts_S10000x64_S10000x64) 0x00000000#32
          reduces_S10000x64_S64 (.inl rfl) rfl) shapeCasts_S64_S1x64 (ix2 (0 : Fin 1) j) = _
  refine congrArg₂ (· + ·) ?_ ?_
  · exact congrFun (shapeCast_self xo shapeCasts_S1x64_S1x64) _
  · refine (colsum_cast _ reduces_S10000x64_S64 (.inl rfl) rfl shapeCasts_S64_S1x64 j).trans ?_
    exact Finset.sum_congr rfl fun r _ => congrFun (shapeCast_self x shapeCasts_S10000x64_S10000x64) _

/-- The second output's new entry at column `j`: the carried entry plus the block's column sum of squares. -/
theorem pay_sumsq_apply (x : Vec Ideal S10000x64 .f32) (xo : Vec Ideal S1x64 .f32) (j : Fin 64) :
    k1_pay5 (F := Ideal) x xo (ix2 (0 : Fin 1) j) = xo (ix2 (0 : Fin 1) j) + ∑ r : Fin 10000, x (ix2 r j) * x (ix2 r j) := by
  unfold k1_pay5 k1_pay3
  show shapeCast S1x64 xo shapeCasts_S1x64_S1x64 (ix2 (0 : Fin 1) j)
      + shapeCast S1x64 (multiReduction (F := Ideal) .add [0] S64
          (mulf (F := Ideal) (shapeCast S10000x64 x shapeCasts_S10000x64_S10000x64) (shapeCast S10000x64 x shapeCasts_S10000x64_S10000x64))
          0x00000000#32 reduces_S10000x64_S64 (.inl rfl) rfl) shapeCasts_S64_S1x64 (ix2 (0 : Fin 1) j) = _
  refine congrArg₂ (· + ·) ?_ ?_
  · exact congrFun (shapeCast_self xo shapeCasts_S1x64_S1x64) _
  · refine (colsum_cast _ reduces_S10000x64_S64 (.inl rfl) rfl shapeCasts_S64_S1x64 j).trans ?_
    refine Finset.sum_congr rfl fun r _ => ?_
    show shapeCast S10000x64 x shapeCasts_S10000x64_S10000x64 (ix2 r j) * shapeCast S10000x64 x shapeCasts_S10000x64_S10000x64 (ix2 r j) = _
    rw [shapeCast_self]

/-- The block the first output is reset to holds the real number zero everywhere. -/
theorem zero_pay1 (i : S1x64.Idx) : k1_pay1 (F := Ideal) i = 0 := Ideal.ofBits_zero_f32
/-- So does the block the second output is reset to. -/
theorem zero_pay2 (i : S1x64.Idx) : k1_pay2 (F := Ideal) i = 0 := Ideal.ofBits_zero_f32

/-! ## What each control case leaves in the outputs

At the first grid point the body stores the zero block, reads it back and stores the updated block on
top; at the other points it reads the carried block and stores the updated one. In both cases the last
store covers the whole 1 × 64 block, so the block ends as that store's value. -/

section Pieces
variable {F : FTy → Type} [FloatOps F]

theorem out_B_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero (S := S1x64) hz]
  simp only [View.readAt_eq_ld, h1.read_unread, h2.read_unread, View.ld_unit_zero (S := S10000x64) hz,
    View.ld_unit_zero (S := S1x64) hz]

theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero (S := S1x64) hz]
  simp only [View.readAt_eq_ld, h1.read_unread, h3.read_unread, View.ld_unit_zero (S := S10000x64) hz,
    View.ld_unit_zero (S := S1x64) hz]

theorem out_A_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

end Pieces

/-! ## The region, at the contents it is entered with -/

section Region
variable (V : (c : Dev nD) → (b : Ref sig .tc) → Buf (Elt Ideal) ((c : Thread nD τ).loc b))

/-- The array the region reads, as the region finds it: 100000 × 64 extended reals. -/
abbrev input (c : Dev nD) : S100000x64.Idx → EReal := V c main_v46

/-- Its entrywise squares. -/
abbrev inputSq (c : Dev nD) : S100000x64.Idx → EReal := fun i => input V c i * input V c i

/-- The 10000 × 64 block of it that grid point `t` reads. -/
abbrev inBlock (c : Dev nD) (t : Fin cfg1.N) : Vec Ideal S10000x64 .f32 := iblk1 V c 0 t

/-- The input window's block `t` starts at row block `t`, column block 0 (decided over the ten grid points). -/
theorem in_index : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Entry `(r, j)` of the input block at point `t` is entry `(10000 * t + r, j)` of the array. -/
theorem block_entry (c : Dev nD) (t : Fin cfg1.N) (r : Fin 10000) (j : Fin 64) (h : 10000 * t.val + r.val < 100000) :
    inBlock V c t (ix2 r j) = input V c (rowCol ⟨10000 * t.val + r.val, h⟩ j) := by
  show iblk1 V c 0 t (ix2 r j) = V c main_v46 (rowCol ⟨10000 * t.val + r.val, h⟩ j)
  unfold iblk1
  rw [View.read_apply]
  show V c main_v46 (((cfg1.win 0).blk t).view.emb (ix2 r j)) = _
  refine congrArg (V c main_v46) (funext fun a => Fin.ext ?_)
  obtain ⟨e0, e1⟩ := in_index t
  match a with
  | ⟨0, _⟩ => show win1_0.index t (0 : Fin 2) * 10000 + 1 * r.val = 10000 * t.val + r.val; rw [e0]; omega
  | ⟨1, _⟩ => show win1_0.index t (1 : Fin 2) * 64 + 1 * j.val = j.val; rw [e1]; omega

/-- So the block's column sum is the sum of the column's rows `10000 * t … 10000 * t + 9999`. -/
theorem block_sum (c : Dev nD) (t : Fin cfg1.N) (j : Fin 64) :
    ∑ r : Fin 10000, inBlock V c t (ix2 r j) = ∑ r : Fin 10000, column (input V c) j (10000 * t.val + r.val) := by
  have hN : t.val < 10 := lt_of_lt_of_eq t.isLt (show cfg1.N = 10 from N_1)
  refine Finset.sum_congr rfl fun r _ => ?_
  have hr : r.val < 10000 := r.isLt
  have hlt : 10000 * t.val + r.val < 100000 := by omega
  rw [block_entry V c t r j hlt]
  unfold column
  rw [dif_pos hlt]

/-- And its column sum of squares is the same stretch of the column of squares. -/
theorem block_sumsq (c : Dev nD) (t : Fin cfg1.N) (j : Fin 64) :
    ∑ r : Fin 10000, inBlock V c t (ix2 r j) * inBlock V c t (ix2 r j)
      = ∑ r : Fin 10000, column (inputSq V c) j (10000 * t.val + r.val) := by
  have hN : t.val < 10 := lt_of_lt_of_eq t.isLt (show cfg1.N = 10 from N_1)
  refine Finset.sum_congr rfl fun r _ => ?_
  have hr : r.val < 10000 := r.isLt
  have hlt : 10000 * t.val + r.val < 100000 := by omega
  rw [block_entry V c t r j hlt]
  unfold column
  rw [dif_pos hlt]

/-! ### One point's effect on the two outputs -/

/-- The first point leaves in the first output the first block's column sums. -/
theorem sum_first_point (c : Dev nD) (t : Fin cfg1.N) (h0 : t.val % 10 = 0) (j : Fin 64) :
    (outsAt1 V c t.val t.isLt).1 (ix2 (0 : Fin 1) j)
      = ∑ r : Fin 10000, column (input V c) j (10000 * t.val + r.val) := by
  refine (congrFun (congrArg Prod.fst (outsAt1_A V c t h0)) (ix2 (0 : Fin 1) j)).trans ?_
  refine (congrFun (out_A_1 (F := Ideal) c (grid1.coords t) (ms1_0 t) (hs1_0 t) (ms1_1 t) (hs1_1 t) (ms1_2 t) (hs1_2 t)
    ((hcond1_0 t).mpr h0) (iblk1 V c 0 t)) (ix2 (0 : Fin 1) j)).trans ?_
  refine (pay_sum_apply (inBlock V c t) (k1_pay1 (F := Ideal)) j).trans ?_
  rw [zero_pay1, zero_add]
  exact block_sum V c t j

/-- A later point adds the block's column sums to what the point before left there. -/
theorem sum_later_point (c : Dev nD) (t : Fin cfg1.N) (h0 : ¬t.val % 10 = 0) (j : Fin 64) :
    (outsAt1 V c t.val t.isLt).1 (ix2 (0 : Fin 1) j)
      = (outsAt1 V c (t.val - 1) (Nat.lt_of_le_of_lt (Nat.sub_le _ _) t.isLt)).1 (ix2 (0 : Fin 1) j)
        + ∑ r : Fin 10000, column (input V c) j (10000 * t.val + r.val) := by
  refine (congrFun (congrArg Prod.fst (outsAt1_B V c t h0)) (ix2 (0 : Fin 1) j)).trans ?_
  refine (congrFun (out_B_1 (F := Ideal) c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2) (ix2 (0 : Fin 1) j)).trans ?_
  refine (pay_sum_apply (inBlock V c t) (outsAt1 V c (t.val - 1) (Nat.lt_of_le_of_lt (Nat.sub_le _ _) t.isLt)).1 j).trans ?_
  exact congrArg _ (block_sum V c t j)

/-- The first point leaves in the second output the first block's column sums of squares. -/
theorem sumsq_first_point (c : Dev nD) (t : Fin cfg1.N) (h0 : t.val % 10 = 0) (j : Fin 64) :
    (outsAt1 V c t.val t.isLt).2 (ix2 (0 : Fin 1) j)
      = ∑ r : Fin 10000, column (inputSq V c) j (10000 * t.val + r.val) := by
  refine (congrFun (congrArg Prod.snd (outsAt1_A V c t h0)) (ix2 (0 : Fin 1) j)).trans ?_
  refine (congrFun (out_A_2 (F := Ideal) c (grid1.coords t) (ms1_0 t) (hs1_0 t) (ms1_1 t) (hs1_1 t) (ms1_2 t) (hs1_2 t)
    ((hcond1_0 t).mpr h0) (iblk1 V c 0 t)) (ix2 (0 : Fin 1) j)).trans ?_
  refine (pay_sumsq_apply (inBlock V c t) (k1_pay2 (F := Ideal)) j).trans ?_
  rw [zero_pay2, zero_add]
  exact block_sumsq V c t j

/-- A later point adds the block's column sums of squares to what the point before left there. -/
theorem sumsq_later_point (c : Dev nD) (t : Fin cfg1.N) (h0 : ¬t.val % 10 = 0) (j : Fin 64) :
    (outsAt1 V c t.val t.isLt).2 (ix2 (0 : Fin 1) j)
      = (outsAt1 V c (t.val - 1) (Nat.lt_of_le_of_lt (Nat.sub_le _ _) t.isLt)).2 (ix2 (0 : Fin 1) j)
        + ∑ r : Fin 10000, column (inputSq V c) j (10000 * t.val + r.val) := by
  refine (congrFun (congrArg Prod.snd (outsAt1_B V c t h0)) (ix2 (0 : Fin 1) j)).trans ?_
  refine (congrFun (out_B_2 (F := Ideal) c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2) (ix2 (0 : Fin 1) j)).trans ?_
  refine (pay_sumsq_apply (inBlock V c t) (outsAt1 V c (t.val - 1) (Nat.lt_of_le_of_lt (Nat.sub_le _ _) t.isLt)).2 j).trans ?_
  exact congrArg _ (block_sumsq V c t j)

/-! ### The running sums, by induction on the grid point -/

/-- After point `n` the first output holds at column `j` the sum of the first `10000 * (n + 1)` rows of the column. -/
theorem sum_after (c : Dev nD) : ∀ (n : ℕ) (h : n < cfg1.N) (j : Fin 64),
    (outsAt1 V c n h).1 (ix2 (0 : Fin 1) j) = firstRows (input V c) j (10000 * (n + 1))
  | 0, h, j => by
    rw [firstRows_block, show firstRows (input V c) j (10000 * 0) = 0 from firstRows_zero _ _, zero_add]
    exact sum_first_point V c ⟨0, h⟩ rfl j
  | n + 1, h, j => by
    have hN : cfg1.N = 10 := N_1
    have hB : ¬(⟨n + 1, h⟩ : Fin cfg1.N).val % 10 = 0 := by dsimp only; omega
    rw [firstRows_block, ← sum_after c n (Nat.lt_of_succ_lt h) j]
    exact sum_later_point V c ⟨n + 1, h⟩ hB j

/-- After point `n` the second output holds at column `j` the sum of the squares of those rows. -/
theorem sumsq_after (c : Dev nD) : ∀ (n : ℕ) (h : n < cfg1.N) (j : Fin 64),
    (outsAt1 V c n h).2 (ix2 (0 : Fin 1) j) = firstRows (inputSq V c) j (10000 * (n + 1))
  | 0, h, j => by
    rw [firstRows_block, show firstRows (inputSq V c) j (10000 * 0) = 0 from firstRows_zero _ _, zero_add]
    exact sumsq_first_point V c ⟨0, h⟩ rfl j
  | n + 1, h, j => by
    have hN : cfg1.N = 10 := N_1
    have hB : ¬(⟨n + 1, h⟩ : Fin cfg1.N).val % 10 = 0 := by dsimp only; omega
    rw [firstRows_block, ← sumsq_after c n (Nat.lt_of_succ_lt h) j]
    exact sumsq_later_point V c ⟨n + 1, h⟩ hB j

/-- The column sums of `f`, as a 1 × 64 array. -/
def colSums (f : S100000x64.Idx → EReal) : S1x64.Idx → EReal := fun y => ∑ k : Fin 100000, f (rowCol k (y 1))

/-- After the last point the first output is the array of column sums. -/
theorem sum_last (c : Dev nD) (h9 : 9 < cfg1.N) : (outsAt1 V c 9 h9).1 = colSums (input V c) := by
  funext y
  refine (congrArg (outsAt1 V c 9 h9).1 (unit_row y)).trans ?_
  refine (sum_after V c 9 h9 (y 1)).trans ?_
  exact firstRows_all _ _

/-- After the last point the second output is the array of column sums of squares. -/
theorem sumsq_last (c : Dev nD) (h9 : 9 < cfg1.N) : (outsAt1 V c 9 h9).2 = colSums (inputSq V c) := by
  funext y
  refine (congrArg (outsAt1 V c 9 h9).2 (unit_row y)).trans ?_
  refine (sumsq_after V c 9 h9 (y 1)).trans ?_
  exact firstRows_all _ _

/-! ### The write-back: one block, after the last point -/

/-- Both outputs' one block sits at block index (0, 0) at every grid point. -/
theorem out_index : ∀ t : Fin cfg1.N, win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Block (0, 0) of a 1 × 64 array is the whole array: reading any contents `G` through the first output's block
    at any point gives `G` back. -/
theorem whole_block_1 (t : Fin cfg1.N) (G : S1x64.Idx → EReal) :
    (cfg1.win 1).cut (grid1.coords t) G = ((cfg1.win 1).blk t).view.read (Elt Ideal) G := by
  obtain ⟨e0, e1, -, -⟩ := out_index t
  funext y
  show G y = G (((cfg1.win 1).blk t).view.emb y)
  refine congrArg G (funext fun a => Fin.ext ?_)
  match a with
  | ⟨0, _⟩ => show (y 0).val = win1_1.index t (0 : Fin 2) * 1 + 1 * (y 0).val; rw [e0]; omega
  | ⟨1, _⟩ => show (y 1).val = win1_1.index t (1 : Fin 2) * 64 + 1 * (y 1).val; rw [e1]; omega

/-- The same through the second output's block. -/
theorem whole_block_2 (t : Fin cfg1.N) (G : S1x64.Idx → EReal) :
    (cfg1.win 2).cut (grid1.coords t) G = ((cfg1.win 2).blk t).view.read (Elt Ideal) G := by
  obtain ⟨-, -, e0, e1⟩ := out_index t
  funext y
  show G y = G (((cfg1.win 2).blk t).view.emb y)
  refine congrArg G (funext fun a => Fin.ext ?_)
  match a with
  | ⟨0, _⟩ => show (y 0).val = win1_2.index t (0 : Fin 2) * 1 + 1 * (y 0).val; rw [e0]; omega
  | ⟨1, _⟩ => show (y 1).val = win1_2.index t (1 : Fin 2) * 64 + 1 * (y 1).val; rw [e1]; omega

/-- The first output is written back after the last point only, and what is written is the whole array of column sums. -/
theorem flushed_sum (c : Dev nD) (t : Fin cfg1.N) (hf : (cfg1.win 1).flush t = true) :
    (dat1 (F := Ideal) V c).flushed 1 t = ((cfg1.win 1).blk t).view.read (Elt Ideal) (colSums (input V c)) := by
  have hN : cfg1.N = 10 := N_1
  have h9 : t.val = 9 := by have := (flush1_1 t).mp hf; have := t.isLt; omega
  show (cfg1.win 1).cut (grid1.coords t) ((dat1 (F := Ideal) V c).after 1 t) = _
  rw [after1_1]
  have e : (outsAt1 V c t.val t.isLt).1 = colSums (input V c) := by
    obtain ⟨n, hn⟩ := t
    obtain rfl : n = 9 := h9
    exact sum_last V c hn
  rw [e]
  exact whole_block_1 t (colSums (input V c))

/-- Likewise the second output: the whole array of column sums of squares. -/
theorem flushed_sumsq (c : Dev nD) (t : Fin cfg1.N) (hf : (cfg1.win 2).flush t = true) :
    (dat1 (F := Ideal) V c).flushed 2 t = ((cfg1.win 2).blk t).view.read (Elt Ideal) (colSums (inputSq V c)) := by
  have hN : cfg1.N = 10 := N_1
  have h9 : t.val = 9 := by have := (flush1_2 t).mp hf; have := t.isLt; omega
  show (cfg1.win 2).cut (grid1.coords t) ((dat1 (F := Ideal) V c).after 2 t) = _
  rw [after1_2]
  have e : (outsAt1 V c t.val t.isLt).2 = colSums (inputSq V c) := by
    obtain ⟨n, hn⟩ := t
    obtain rfl : n = 9 := h9
    exact sumsq_last V c hn
  rw [e]
  exact whole_block_2 t (colSums (inputSq V c))

/-- An index of the first output's array lies in point `t`'s block exactly when each coordinate lies in the
    block's range on its axis. -/
theorem mem_block_1 (t : Fin cfg1.N) (i : S1x64.Idx) :
    i ∈ ((cfg1.win 1).blk t).view.set ↔ ∀ a : Fin 2, win1_1.index t a * S1x64.size a ≤ (i a).val
      ∧ (i a).val < win1_1.index t a * S1x64.size a + S1x64.size a := by
  show i ∈ ((View.whole main_v47_0).slice (win1_1.rect t)).set ↔ _
  rw [View.set_slice_whole, Rect.mem_set_unit]
  exact Iff.rfl

/-- The same for the second output's array. -/
theorem mem_block_2 (t : Fin cfg1.N) (i : S1x64.Idx) :
    i ∈ ((cfg1.win 2).blk t).view.set ↔ ∀ a : Fin 2, win1_2.index t a * S1x64.size a ≤ (i a).val
      ∧ (i a).val < win1_2.index t a * S1x64.size a + S1x64.size a := by
  show i ∈ ((View.whole main_v47_1).slice (win1_2.rect t)).set ↔ _
  rw [View.set_slice_whole, Rect.mem_set_unit]
  exact Iff.rfl

/-- The last point's block is the whole 1 × 64 array, so that one write-back covers it. -/
theorem covered_1 (i : S1x64.Idx) :
    ∃ t : Fin cfg1.N, (cfg1.win 1).flush t = true ∧ i ∈ ((cfg1.win 1).blk t).view.set := by
  have hi0 : (i 0).val < 1 := (i 0).isLt
  have hi1 : (i 1).val < 64 := (i 1).isLt
  obtain ⟨e0, e1, -, -⟩ := out_index t1_9
  refine ⟨t1_9, (flush1_1 t1_9).mpr rfl, ?_⟩
  rw [mem_block_1]
  intro a
  match a with
  | ⟨0, _⟩ => show win1_1.index t1_9 (0 : Fin 2) * 1 ≤ (i 0).val ∧ (i 0).val < win1_1.index t1_9 (0 : Fin 2) * 1 + 1; omega
  | ⟨1, _⟩ => show win1_1.index t1_9 (1 : Fin 2) * 64 ≤ (i 1).val ∧ (i 1).val < win1_1.index t1_9 (1 : Fin 2) * 64 + 64; omega

theorem covered_2 (i : S1x64.Idx) :
    ∃ t : Fin cfg1.N, (cfg1.win 2).flush t = true ∧ i ∈ ((cfg1.win 2).blk t).view.set := by
  have hi0 : (i 0).val < 1 := (i 0).isLt
  have hi1 : (i 1).val < 64 := (i 1).isLt
  obtain ⟨-, -, e0, e1⟩ := out_index t1_9
  refine ⟨t1_9, (flush1_2 t1_9).mpr rfl, ?_⟩
  rw [mem_block_2]
  intro a
  match a with
  | ⟨0, _⟩ => show win1_2.index t1_9 (0 : Fin 2) * 1 ≤ (i 0).val ∧ (i 0).val < win1_2.index t1_9 (0 : Fin 2) * 1 + 1; omega
  | ⟨1, _⟩ => show win1_2.index t1_9 (1 : Fin 2) * 64 ≤ (i 1).val ∧ (i 1).val < win1_2.index t1_9 (1 : Fin 2) * 64 + 64; omega

/-! ### The two results -/

/-- After the region the first output array is the array of column sums of the input. -/
theorem sum_array (c : Dev nD) : (dat1 (F := Ideal) V c).arrAt 1 cfg1.N = colSums (input V c) :=
  (dat1 (F := Ideal) V c).arrAt_eq_of_cover 1 (colSums (input V c)) (flushed_sum V c) covered_1

/-- And the second output array is the array of column sums of the input's squares. -/
theorem sumsq_array (c : Dev nD) : (dat1 (F := Ideal) V c).arrAt 2 cfg1.N = colSums (inputSq V c) :=
  (dat1 (F := Ideal) V c).arrAt_eq_of_cover 2 (colSums (inputSq V c)) (flushed_sumsq V c) covered_2

/-- Entry by entry: the first output array holds, at column `y 1`, the sum of that column of the input over all
    100000 rows. -/
theorem region1_sum (c : Dev nD) : ∀ y : S1x64.Idx,
    (dat1 (F := Ideal) V c).arrAt 1 cfg1.N y = ∑ k : Fin 100000, input V c (rowCol k (y 1)) := fun y =>
  congrFun (sum_array V c) y

/-- And the second output array holds the sum of the squares of that column's entries. -/
theorem region1_sumsq (c : Dev nD) : ∀ y : S1x64.Idx,
    (dat1 (F := Ideal) V c).arrAt 2 cfg1.N y
      = ∑ k : Fin 100000, input V c (rowCol k (y 1)) * input V c (rowCol k (y 1)) := fun y =>
  congrFun (sumsq_array V c) y

end Region

end Cert.KernelIdeal.StatsRegion

end
-- ==== Proof.NormSpec.lean ====
/-
  The normalisation of one entry, as a function of the node-feature array and four per-column arrays.

  For a node-feature array `A` (100000 × 64) and per-column arrays `μ`, `v`, `γ`, `β` of shape 1 × 64, entry
  `(r, q)` of the normalised array is

      max ( (A(r, q) − μ(0, q)) · (v(0, q) + ε)^(-1/2) · γ(0, q) + β(0, q), 0 ):

  the entry centred at its column's `μ`, divided by the square root of its column's `v` plus a small constant,
  scaled by `γ`, shifted by `β`, and clamped below at zero.
-/
import proofs.«113359_j37572373905743_1_alg».proof.KernelIdeal
import Idealize.ShloMosaic.PureOps.Ideal

noncomputable section

namespace Cert.KernelIdeal.NormRegion

open Cert.KernelIdeal Idealize.ShloMosaic

/-- The entry of a 1 × 64 array above column `i 1` of the big array. -/
def top (i : S100000x64.Idx) : S1x64.Idx := fun a => match a with
  | ⟨0, _⟩ => ⟨0, Nat.one_pos⟩
  | ⟨1, _⟩ => ⟨(i 1).val, (i 1).isLt⟩

/-- The same, above column `y 1` of a row block. -/
def topOfBlock (y : S10000x64.Idx) : S1x64.Idx := fun a => match a with
  | ⟨0, _⟩ => ⟨0, Nat.one_pos⟩
  | ⟨1, _⟩ => ⟨(y 1).val, (y 1).isLt⟩

/-- Centre, scale by the inverse square root of the spread plus `ε`, scale by `γ`, shift by `β`, clamp at zero:
    entry by entry, each per-column array read above the entry's column. -/
def normOf (A : S100000x64.Idx → Ideal .f32) (μ v γ β : S1x64.Idx → Ideal .f32) : S100000x64.Idx → Ideal .f32 := fun i =>
  FloatOps.maximumf
    (FloatOps.addf
      (FloatOps.mulf
        (FloatOps.mulf (FloatOps.subf (A i) (μ (top i)))
          (FloatOps.rsqrt (FloatOps.addf (v (top i)) (FloatOps.ofBits .f32 0x3727C5AC#32))))
        (γ (top i)))
      (β (top i)))
    (FloatOps.ofBits .f32 0x00000000#32)

end Cert.KernelIdeal.NormRegion

end
-- ==== Proof.NormRegion.lean ====
/-
  The normalisation region: every feature column centred, scaled, shifted and clamped, row block by row block.

  The region's inputs are a node-feature array `A` (100000 × 64) and four per-column arrays of shape 1 × 64: a
  centre `μ`, a spread `v`, a scale `γ` and a shift `β`. Its output has `A`'s shape. Its grid has ten points; point
  `t` fetches rows `10000·t … 10000·t + 9999` of `A` (the four small arrays are fetched whole), computes for every
  entry `(r, q)` of the block

      max ( (A(r, q) − μ(0, q)) · (v(0, q) + ε)^(-1/2) · γ(0, q) + β(0, q), 0 ),

  and writes the block back over the same rows of the output. The ten row blocks tile the output, and what point
  `t` writes is block `t` of ONE function of the five whole arrays (`normOf`), so after the last point the output
  array is that function, whatever the order of the write-backs.
-/
import proofs.«113359_j37572373905743_1_alg».proof.Proof.Gen.KernelIdeal.Frame
import proofs.«113359_j37572373905743_1_alg».proof.Proof.NormSpec
import Idealize.ShloMosaic.Lib.Pipeline.Value
import Idealize.ShloMosaic.PureOps.Ideal

set_option maxRecDepth 16384

noncomputable section

namespace Cert.KernelIdeal.NormRegion

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- A 1 × 64 array repeated down a 10000-row block, read at an entry: the array above the entry's column. -/
theorem repeat_apply (x : S1x64.Idx → Ideal .f32) (h : S1x64.Broadcasts S10000x64) (y : S10000x64.Idx) :
    broadcastTo S10000x64 x h y = x (topOfBlock y) :=
  broadcastTo_apply x h y (topOfBlock y) (fun a => by
    match a with
    | ⟨0, _⟩ => rfl
    | ⟨1, _⟩ => rfl)

/-- The body's arithmetic on one block, read at an entry of the block. -/
theorem payload_apply (x0 : Vec Ideal S10000x64 .f32) (x1 x2 x3 x4 : Vec Ideal S1x64 .f32) (y : S10000x64.Idx) :
    k2_pay1 (F := Ideal) x0 x1 x2 x3 x4 y
      = FloatOps.maximumf
          (FloatOps.addf
            (FloatOps.mulf
              (FloatOps.mulf (FloatOps.subf (x0 y) (x1 (topOfBlock y)))
                (FloatOps.rsqrt (FloatOps.addf (x2 (topOfBlock y)) (FloatOps.ofBits .f32 0x3727C5AC#32))))
              (x3 (topOfBlock y)))
            (x4 (topOfBlock y)))
          (FloatOps.ofBits .f32 0x00000000#32) := by
  unfold k2_pay1
  simp only [shapeCast_self]
  simp only [maximumf, addf, mulf, subf, rsqrt, broadcast, repeat_apply]

/-- The same as an equation between functions on the block. -/
theorem payload_eq (x0 : Vec Ideal S10000x64 .f32) (x1 x2 x3 x4 : Vec Ideal S1x64 .f32) :
    k2_pay1 (F := Ideal) x0 x1 x2 x3 x4
      = fun y => FloatOps.maximumf
          (FloatOps.addf
            (FloatOps.mulf
              (FloatOps.mulf (FloatOps.subf (x0 y) (x1 (topOfBlock y)))
                (FloatOps.rsqrt (FloatOps.addf (x2 (topOfBlock y)) (FloatOps.ofBits .f32 0x3727C5AC#32))))
              (x3 (topOfBlock y)))
            (x4 (topOfBlock y)))
          (FloatOps.ofBits .f32 0x00000000#32) :=
  funext fun y => payload_apply x0 x1 x2 x3 x4 y

/-- Over the ten grid points: the big input's block moves with the output's, the output's block index runs over
    the ten row blocks with its column block fixed, and the four per-column inputs stay at their one block. -/
theorem index_facts : ∀ t : Fin cfg2.N, win2_0.index t (0 : Fin 2) = win2_5.index t (0 : Fin 2)
    ∧ win2_0.index t (1 : Fin 2) = win2_5.index t (1 : Fin 2)
    ∧ win2_5.index t (0 : Fin 2) ≤ 9 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every one of the ten row blocks is some grid point's. -/
theorem index_onto : ∀ q : Fin 10, ∃ t : Fin cfg2.N, win2_5.index t = ![q.val, 0] :=
  (by decide +kernel : ∀ q : Fin 10, ∃ t : Fin grid2.N, win2_5.index t = ![q.val, 0])

set_option maxHeartbeats 1000000 in
/-- What grid point `t` writes back is block `t` of `normOf` of the five whole arrays as the region finds them. -/
theorem flushed_eq (c : Dev nD) (t : Fin cfg2.N) :
    (dat2 (F := Ideal) V c).flushed 5 t
      = ((cfg2.win 5).blk t).view.read (Elt Ideal)
          (normOf (V c main_v46) (V c main_v56) (V c main_v57) (V c main_v58) (V c main_v59)) := by
  show (cfg2.win 5).cut (grid2.coords t) ((dat2 (F := Ideal) V c).after 5 t) = _
  rw [after2_5]
  unfold out2_5
  rw [View.canon_unit_zero origin]
  simp only [View.ld_unit_zero (S := S10000x64) origin, View.ld_unit_zero (S := S1x64) origin]
  rw [payload_eq]
  obtain ⟨e0, e1, -, e3, a0, a1, b0, b1, g0, g1, d0, d1⟩ := index_facts t
  funext j
  have h0 : ((cfg2.win 0).blk t).view.emb j = ((cfg2.win 5).blk t).view.emb j := by
    funext a; apply Fin.ext
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * (j 1).val = win2_5.index t (1 : Fin 2) * 64 + 1 * (j 1).val; omega
  have h1 : ((cfg2.win 1).blk t).view.emb (topOfBlock j) = top (((cfg2.win 5).blk t).view.emb j) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_5.index t (1 : Fin 2) * 64 + 1 * (j 1).val; omega
  have h2 : ((cfg2.win 2).blk t).view.emb (topOfBlock j) = top (((cfg2.win 5).blk t).view.emb j) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_5.index t (1 : Fin 2) * 64 + 1 * (j 1).val; omega
  have h3 : ((cfg2.win 3).blk t).view.emb (topOfBlock j) = top (((cfg2.win 5).blk t).view.emb j) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_5.index t (1 : Fin 2) * 64 + 1 * (j 1).val; omega
  have h4 : ((cfg2.win 4).blk t).view.emb (topOfBlock j) = top (((cfg2.win 5).blk t).view.emb j) := by
    funext a; apply Fin.ext
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega
  show FloatOps.maximumf
      (FloatOps.addf
        (FloatOps.mulf
          (FloatOps.mulf (FloatOps.subf (V c main_v46 (((cfg2.win 0).blk t).view.emb j)) (V c main_v56 (((cfg2.win 1).blk t).view.emb (topOfBlock j))))
            (FloatOps.rsqrt (FloatOps.addf (V c main_v57 (((cfg2.win 2).blk t).view.emb (topOfBlock j))) (FloatOps.ofBits .f32 0x3727C5AC#32))))
          (V c main_v58 (((cfg2.win 3).blk t).view.emb (topOfBlock j))))
        (V c main_v59 (((cfg2.win 4).blk t).view.emb (topOfBlock j))))
      (FloatOps.ofBits .f32 0x00000000#32)
    = normOf (V c main_v46) (V c main_v56) (V c main_v57) (V c main_v58) (V c main_v59) (((cfg2.win 5).blk t).view.emb j)
  rw [h0, h1, h2, h3, h4]
  rfl

/-- An entry of the output lies in grid point `t`'s block exactly when each of its coordinates lies in the
    block's range on that axis. -/
theorem mem_block (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v60).slice (win2_5.rect t)).set ↔ _
  rw [View.set_slice_whole, Rect.mem_set_unit]
  exact Iff.rfl

/-- The ten blocks cover the output: row `r` lies in block `r / 10000`. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := index_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- After the region, the output array is `normOf` of the five input arrays as the region found them. -/
theorem array_eq (c : Dev nD) :
    (dat2 (F := Ideal) V c).arrAt 5 cfg2.N
      = normOf (V c main_v46) (V c main_v56) (V c main_v57) (V c main_v58) (V c main_v59) :=
  (dat2 (F := Ideal) V c).arrAt_eq_of_cover 5 _ (fun t _ => flushed_eq V c t) covered

end Cert.KernelIdeal.NormRegion

end
-- ==== Proof.SigmoidRegion.lean ====
/-
  The last kernel region: the logistic function, row block by row block.

  The region's input is a column `z` of 100000 entries (an array of shape 100000 × 1) and its output a column of
  the same shape. Its grid has ten points; point `t` fetches rows `10000·t … 10000·t + 9999` of the input, applies
  the logistic function `1 / (1 + e^(-x))` to each entry, and writes the result back over the same rows of the
  output. The ten row blocks tile the column, and what point `t` writes is block `t` of ONE function of the whole
  input — entry `i` of the output is the logistic function of entry `i` of the input — so after the last point
  the output array is that function of the input array, whatever the order of the write-backs.
-/
import proofs.«113359_j37572373905743_1_alg».proof.Proof.Gen.KernelIdeal.Frame
import Idealize.ShloMosaic.Lib.Pipeline.Value
import Idealize.ShloMosaic.PureOps.Ideal

set_option maxRecDepth 16384

noncomputable section

namespace Cert.KernelIdeal.SigmoidRegion

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The logistic function applied to every entry of a column. -/
def logisticOf (z : S100000x1.Idx → EReal) : S100000x1.Idx → EReal := fun i => Ideal.logistic (z i)

/-- The body's arithmetic on one block: the logistic function of each entry of the block. -/
theorem payload_eq (x0 : Vec Ideal S10000x1 .f32) :
    k4_pay1 (F := Ideal) x0 = fun y => Ideal.logistic (x0 y) := by
  unfold k4_pay1
  rw [shapeCast_self]
  rfl

/-- Over the ten grid points: the input's block moves with the output's, and the output's block index runs over
    the ten row blocks, its column block fixed. -/
theorem index_facts : ∀ t : Fin cfg4.N, win4_0.index t (0 : Fin 2) = win4_1.index t (0 : Fin 2)
    ∧ win4_0.index t (1 : Fin 2) = win4_1.index t (1 : Fin 2)
    ∧ win4_1.index t (0 : Fin 2) ≤ 9 ∧ win4_1.index t (1 : Fin 2) = 0 :=
  (by decide +kernel : ∀ t : Fin grid4.N, _)

/-- Every one of the ten row blocks is some grid point's. -/
theorem index_onto : ∀ q : Fin 10, ∃ t : Fin cfg4.N, win4_1.index t = ![q.val, 0] :=
  (by decide +kernel : ∀ q : Fin 10, ∃ t : Fin grid4.N, win4_1.index t = ![q.val, 0])

/-- What grid point `t` writes back is block `t` of the logistic function of the whole input column. -/
theorem flushed_eq (c : Dev nD) (t : Fin cfg4.N) :
    (dat4 (F := Ideal) V c).flushed 1 t
      = ((cfg4.win 1).blk t).view.read (Elt Ideal) (logisticOf (V c main_v76)) := by
  show (cfg4.win 1).cut (grid4.coords t) ((dat4 (F := Ideal) V c).after 1 t) = _
  rw [after4_1]
  unfold out4_1
  rw [View.canon_unit_zero origin]
  simp only [View.ld_unit_zero (S := S10000x1) origin]
  rw [payload_eq]
  obtain ⟨e0, e1, -, -⟩ := index_facts t
  funext j
  show Ideal.logistic (V c main_v76 (((cfg4.win 0).blk t).view.emb j))
      = Ideal.logistic (V c main_v76 (((cfg4.win 1).blk t).view.emb j))
  have h0 : ((cfg4.win 0).blk t).view.emb j = ((cfg4.win 1).blk t).view.emb j := by
    funext a; apply Fin.ext
    match a with
    | ⟨0, _⟩ => show win4_0.index t (0 : Fin 2) * 10000 + 1 * (j 0).val = win4_1.index t (0 : Fin 2) * 10000 + 1 * (j 0).val; omega
    | ⟨1, _⟩ => show win4_0.index t (1 : Fin 2) * 1 + 1 * (j 1).val = win4_1.index t (1 : Fin 2) * 1 + 1 * (j 1).val; omega
  rw [h0]

/-- An entry of the column lies in grid point `t`'s block exactly when each of its coordinates lies in the block's
    range on that axis. -/
theorem mem_block (t : Fin cfg4.N) (i : S100000x1.Idx) :
    i ∈ ((cfg4.win 1).blk t).view.set ↔ ∀ a : Fin 2, win4_1.index t a * S10000x1.size a ≤ (i a).val
      ∧ (i a).val < win4_1.index t a * S10000x1.size a + S10000x1.size a := by
  show i ∈ ((View.whole main_v77).slice (win4_1.rect t)).set ↔ _
  rw [View.set_slice_whole, Rect.mem_set_unit]
  exact Iff.rfl

/-- The ten blocks cover the column: row `r` lies in block `r / 10000`. -/
theorem covered (i : S100000x1.Idx) :
    ∃ t : Fin cfg4.N, (cfg4.win 1).flush t = true ∧ i ∈ ((cfg4.win 1).blk t).view.set := by
  have hi0 : (i 0).val < 100000 := (i 0).isLt
  have hi1 : (i 1).val < 1 := (i 1).isLt
  obtain ⟨t, ht⟩ := index_onto ⟨(i 0).val / 10000, by omega⟩
  have q0 : win4_1.index t (0 : Fin 2) = (i 0).val / 10000 := congrFun ht 0
  have q1 : win4_1.index t (1 : Fin 2) = 0 := congrFun ht 1
  refine ⟨t, flush4_1 t, ?_⟩
  rw [mem_block]
  intro a
  match a with
  | ⟨0, _⟩ => show win4_1.index t (0 : Fin 2) * 10000 ≤ (i 0).val ∧ (i 0).val < win4_1.index t (0 : Fin 2) * 10000 + 10000; omega
  | ⟨1, _⟩ => show win4_1.index t (1 : Fin 2) * 1 ≤ (i 1).val ∧ (i 1).val < win4_1.index t (1 : Fin 2) * 1 + 1; omega

/-- After the region, the output column is the logistic function of the input column as the region found it. -/
theorem array_eq (c : Dev nD) :
    (dat4 (F := Ideal) V c).arrAt 1 cfg4.N = logisticOf (V c main_v76) :=
  (dat4 (F := Ideal) V c).arrAt_eq_of_cover 1 (logisticOf (V c main_v76)) (fun t _ => flushed_eq V c t) covered

end Cert.KernelIdeal.SigmoidRegion

end
-- ==== Proof.FoldEntry.lean ====
/-
  The buffers the first kernel region is entered with, as functions of the launch arguments.

  Before its first region the program runs three stretches of host operations, all on the edge list alone. The
  first appends a self-loop for every node to the given sources and to the given targets, counts for every node
  the edges that end in it (its degree), and prepares the degree's inverse square root together with the mark
  "degree positive". The second keeps the inverse square root where the degree is positive and puts zero
  elsewhere. The third multiplies, along every edge, that quantity at the edge's two ends. None of them writes an
  argument of the program.

  Each stretch is read on its own: a buffer after the stretch is the stretch's operations applied to what the
  buffers held before it, whatever that was; a buffer the stretch does not write is unchanged. Composing the three
  readings from the launch memory gives the source list, the target list and the edge weights as the functions
  of the edge list that `Cert.Spec` names, and every argument buffer as launched.
-/
import proofs.«113359_j37572373905743_1_alg».proof.Proof.Gen.KernelIdeal.Frame
import proofs.«113359_j37572373905743_1_alg».proof.Proof.Spec
import Idealize.ShloMosaic.Lib.StableHlo.Run
import Idealize.ShloMosaic.PureOps.Ideal

set_option maxRecDepth 16384

noncomputable section

namespace Cert.KernelIdeal.FoldEntry

open Cert.KernelIdeal Cert.KernelIdeal.Gen
open Idealize.ShloMosaic Idealize.ShloMosaic.TcCoe Idealize.SL.Sem Idealize.ShloMosaic.StableHlo

/-! ## One stretch of host operations at a time

Each lemma reads one buffer after ONE stretch, as that stretch's operations applied to the buffers the
stretch is entered with, whatever those hold (`X`). A buffer the stretch does not write keeps its contents. -/

section Stretches
variable (X : Valuation τ sig (Elt Ideal))

/-- The first stretch appends the node ids to the given sources, -/
theorem first_src : StableHlo.after hostOps0 X (Proc.devRef .tc main_v3) = Cert.Spec.srcIdx (X (Proc.devRef .tc main_arg7)) := by
  dsimp only [hostOps0]; after_results_simp; rfl

/-- and to the given targets, -/
theorem first_dst : StableHlo.after hostOps0 X (Proc.devRef .tc main_v6) = Cert.Spec.dstIdx (X (Proc.devRef .tc main_arg7)) := by
  dsimp only [hostOps0]; after_results_simp; rfl

/-- counts for every node the edges that end in it, -/
theorem first_degree : StableHlo.after hostOps0 X (Proc.devRef .tc main_v10)
    = Cert.Spec.degree (F := Ideal) (X (Proc.devRef .tc main_arg7)) := by
  dsimp only [hostOps0]; after_results_simp; rfl

/-- marks the nodes whose degree is positive, -/
theorem first_positive : StableHlo.after hostOps0 X (Proc.devRef .tc main_v12)
    = cmpf (F := Ideal) .ogt (Cert.Spec.degree (F := Ideal) (X (Proc.devRef .tc main_arg7)))
        (broadcastInDim S100000 ![] Cert.KernelIdeal.Facts₀.bcast_S_S100000 (constant (F := Ideal) S_ .f32 0x00000000#32)) := by
  dsimp only [hostOps0]; after_results_simp; rfl

/-- takes the inverse square root of every degree, -/
theorem first_rsqrt : StableHlo.after hostOps0 X (Proc.devRef .tc main_v13)
    = Host.rsqrt (F := Ideal) (Cert.Spec.degree (F := Ideal) (X (Proc.devRef .tc main_arg7))) := by
  dsimp only [hostOps0]; after_results_simp; rfl

/-- and writes the constant zero. -/
theorem first_zero : StableHlo.after hostOps0 X (Proc.devRef .tc main_cst_2) = constant (F := Ideal) S_ .f32 0x00000000#32 := by
  dsimp only [hostOps0]; after_results_simp

/-- The second stretch keeps the inverse square root where the degree is positive and puts zero elsewhere; -/
theorem second_inv : StableHlo.after hostOps0_1 X (Proc.devRef .tc main_v14)
    = select (X (Proc.devRef .tc main_v12)) (X (Proc.devRef .tc main_v13))
        (broadcastInDim S100000 ![] Cert.KernelIdeal.Facts₀.bcast_S_S100000 (X (Proc.devRef .tc main_cst_2))) := by
  dsimp only [hostOps0_1]; after_results_simp; rfl

/-- it leaves the source list -/
theorem second_src : StableHlo.after hostOps0_1 X (Proc.devRef .tc main_v3) = X (Proc.devRef .tc main_v3) := by
  dsimp only [hostOps0_1]; after_results_simp

/-- and the target list as they were. -/
theorem second_dst : StableHlo.after hostOps0_1 X (Proc.devRef .tc main_v6) = X (Proc.devRef .tc main_v6) := by
  dsimp only [hostOps0_1]; after_results_simp

/-- The third stretch multiplies, along every edge, that quantity at the edge's source by that at its target
    (a negative node id counting from the end); -/
theorem third_weight : StableHlo.after hostOps0_2 X (Proc.devRef .tc main_v29)
    = mulf (F := Ideal) (φ := .f32)
        (Host.gather gather_S100000_S3300000x1_S3300000_n_0_n_n_0_1_1 (X (Proc.devRef .tc main_v14))
          (Cert.Spec.col (Cert.Spec.wrapIdx (X (Proc.devRef .tc main_v3)))))
        (Host.gather gather_S100000_S3300000x1_S3300000_n_0_n_n_0_1_1 (X (Proc.devRef .tc main_v14))
          (Cert.Spec.col (Cert.Spec.wrapIdx (X (Proc.devRef .tc main_v6))))) := by
  dsimp only [hostOps0_2]; after_results_simp; rfl

/-- it too leaves the source list -/
theorem third_src : StableHlo.after hostOps0_2 X (Proc.devRef .tc main_v3) = X (Proc.devRef .tc main_v3) := by
  dsimp only [hostOps0_2]; after_results_simp

/-- and the target list as they were. -/
theorem third_dst : StableHlo.after hostOps0_2 X (Proc.devRef .tc main_v6) = X (Proc.devRef .tc main_v6) := by
  dsimp only [hostOps0_2]; after_results_simp

end Stretches

/-! ## The buffers when the first region is entered -/

section Entry
variable (m : (ℓ : Loc nD τ sig) → Buf (Elt Ideal) ℓ) (ρ : Dev nD → PrngReg) (c : Dev nD)

/-- After the first stretch: the source list, -/
theorem src_1 : W1 m ρ c (Proc.devRef .tc main_v3) = Cert.Spec.srcIdx (m ((c : Thread nD τ).loc main_arg7)) :=
  first_src (W0 m ρ c)

/-- the target list, -/
theorem dst_1 : W1 m ρ c (Proc.devRef .tc main_v6) = Cert.Spec.dstIdx (m ((c : Thread nD τ).loc main_arg7)) :=
  first_dst (W0 m ρ c)

/-- After the second stretch: the inverse square roots of the degrees, zero where the degree is zero, -/
theorem inv_2 : W2 m ρ c (Proc.devRef .tc main_v14) = Cert.Spec.invSqrtDeg (F := Ideal) (m ((c : Thread nD τ).loc main_arg7)) := by
  refine (second_inv (W1 m ρ c)).trans ?_
  rw [show W1 m ρ c (Proc.devRef .tc main_v12) = _ from first_positive (W0 m ρ c),
    show W1 m ρ c (Proc.devRef .tc main_v13) = _ from first_rsqrt (W0 m ρ c),
    show W1 m ρ c (Proc.devRef .tc main_cst_2) = _ from first_zero (W0 m ρ c)]
  rfl

/-- the source list -/
theorem src_2 : W2 m ρ c (Proc.devRef .tc main_v3) = Cert.Spec.srcIdx (m ((c : Thread nD τ).loc main_arg7)) :=
  (second_src (W1 m ρ c)).trans (src_1 m ρ c)

/-- and the target list. -/
theorem dst_2 : W2 m ρ c (Proc.devRef .tc main_v6) = Cert.Spec.dstIdx (m ((c : Thread nD τ).loc main_arg7)) :=
  (second_dst (W1 m ρ c)).trans (dst_1 m ρ c)

/-- At the first region's entry the source list is the given sources followed by the node ids. -/
theorem entry_src : W3 m ρ c (Proc.devRef .tc main_v3) = Cert.Spec.srcIdx (m ((c : Thread nD τ).loc main_arg7)) :=
  (third_src (W2 m ρ c)).trans (src_2 m ρ c)

/-- And the target list the given targets followed by the node ids. -/
theorem entry_dst : W3 m ρ c (Proc.devRef .tc main_v6) = Cert.Spec.dstIdx (m ((c : Thread nD τ).loc main_arg7)) :=
  (third_dst (W2 m ρ c)).trans (dst_2 m ρ c)

/-- The edge weights: the inverse square root of the degree at the source times that at the target. -/
theorem entry_weight : W3 m ρ c (Proc.devRef .tc main_v29)
    = Cert.Spec.edgeWeight (F := Ideal) (m ((c : Thread nD τ).loc main_arg7)) := by
  refine (third_weight (W2 m ρ c)).trans ?_
  rw [inv_2 m ρ c, src_2 m ρ c, dst_2 m ρ c]
  rfl

/-! ### The argument buffers: nothing before the first region writes them -/

theorem entry_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]; after_results_simp
theorem entry_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  dsimp only [hostOps0, hostOps0_1, hostOps0_2]; after_results_simp
theorem entry_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]; after_results_simp
theorem entry_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]; after_results_simp
theorem entry_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]; after_results_simp
theorem entry_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]; after_results_simp
theorem entry_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0, hostOps0_1, hostOps0_2]; after_results_simp

end Entry

end Cert.KernelIdeal.FoldEntry

end
-- ==== Proof.FoldStages.lean ====
/-
  The kernel program's stretches of host operations, read one stretch at a time.

  Between its kernel regions the program runs straight lines of array operations. Each lemma here says what ONE such
  line leaves in a buffer, as a function of the buffer contents `X` on entry to the line, whatever they are: a graph
  convolution of 64 features or of one (gather the source rows, scale by the edge weights, add into the target rows,
  add the bias); the column statistics (from the column sums and the column sums of squares: the mean, and the
  variance as the mean of the squares minus the squared mean); the final reshape; and, for the buffers a line does not
  write, that they keep their contents.
-/
import proofs.«113359_j37572373905743_1_alg».proof.Proof.Gen.KernelIdeal.Frame
import proofs.«113359_j37572373905743_1_alg».proof.Proof.Spec
import Idealize.ShloMosaic.Lib.StableHlo.Run
import Idealize.ShloMosaic.PureOps.Ideal

set_option maxRecDepth 16384

noncomputable section

namespace Cert.KernelIdeal.FoldStages

open Idealize.ShloMosaic Idealize.ShloMosaic.StableHlo Idealize.SL.Sem
open Cert.KernelIdeal Cert.KernelIdeal.Facts₀

/-! ## The two graph convolutions, over any edge ends and weights -/

/-- One graph convolution of 64 features, with the edges' source ends `s`, target ends `t` and weights `w` given as
    arrays: each target row receives the weighted source rows of its edges, plus the bias. -/
def conv64Of (h : FVec Ideal S100000x64 .f32) (s t : IVec S3300000 32) (w : FVec Ideal S3300000 .f32)
    (b : FVec Ideal S64 .f32) : FVec Ideal S100000x64 .f32 :=
  addf
    (Host.scatterAdd (F := Ideal) scatter_S100000x64_S3300000x1_S3300000x64_1_0_0_1
      (broadcastInDim S100000x64 ![] bcast_S_S100000x64 (constant (F := Ideal) S_ .f32 0x00000000#32)) (Cert.Spec.col t)
      (mulf (Host.gather gather_S100000x64_S3300000x1_S3300000x64_1_0_n_n_0_1_164 h (Cert.Spec.col (Cert.Spec.wrapIdx s)))
        (broadcastInDim S3300000x64 ![0, 1] bcast_S3300000x1_S3300000x64_0_1
          (broadcastInDim S3300000x1 ![0] bcast_S3300000_S3300000x1_0 w))))
    (broadcastInDim S100000x64 ![0, 1] bcast_S1x64_S100000x64_0_1 (broadcastInDim S1x64 ![1] bcast_S64_S1x64_1 b))

/-- With the ends and weights the edge list `e` defines, it is the convolution of the specification. -/
theorem conv64Of_spec (h : FVec Ideal S100000x64 .f32) (e : IVec S2x3200000 32) (b : FVec Ideal S64 .f32) :
    conv64Of h (Cert.Spec.srcIdx e) (Cert.Spec.dstIdx e) (Cert.Spec.edgeWeight (F := Ideal) e) b
      = Cert.Spec.conv64 (F := Ideal) h e b := rfl

/-- One graph convolution of a single feature, over given edge ends and weights. -/
def conv1Of (h : FVec Ideal S100000x1 .f32) (s t : IVec S3300000 32) (w : FVec Ideal S3300000 .f32)
    (b : FVec Ideal S1 .f32) : FVec Ideal S100000x1 .f32 :=
  addf
    (Host.scatterAdd (F := Ideal) scatter_S100000x1_S3300000x1_S3300000x1_1_0_0_1
      (broadcastInDim S100000x1 ![] bcast_S_S100000x1 (constant (F := Ideal) S_ .f32 0x00000000#32)) (Cert.Spec.col t)
      (mulf (Host.gather gather_S100000x1_S3300000x1_S3300000x1_1_0_n_n_0_1_11 h (Cert.Spec.col (Cert.Spec.wrapIdx s)))
        (broadcastInDim S3300000x1 ![0] bcast_S3300000_S3300000x1_0 w)))
    (broadcastInDim S100000x1 ![0, 1] bcast_S1x1_S100000x1_0_1 (broadcastInDim S1x1 ![1] bcast_S1_S1x1_1 b))

/-- With the ends and weights the edge list `e` defines, it is the one-feature convolution of the specification. -/
theorem conv1Of_spec (h : FVec Ideal S100000x1 .f32) (e : IVec S2x3200000 32) (b : FVec Ideal S1 .f32) :
    conv1Of h (Cert.Spec.srcIdx e) (Cert.Spec.dstIdx e) (Cert.Spec.edgeWeight (F := Ideal) e) b
      = Cert.Spec.conv1 (F := Ideal) h e b := rfl

/-- The line after the first linear map is the 64-feature convolution of its result, over the edge ends, the edge weights
    and the bias the buffers hold. -/
theorem stage1 (X : Valuation τ sig (Elt Ideal)) :
    StableHlo.after (Gen.hostOps1 (F := Ideal)) X (Proc.devRef .tc main_v46)
      = conv64Of (X (Proc.devRef .tc main_v30)) (X (Proc.devRef .tc main_v3)) (X (Proc.devRef .tc main_v6))
          (X (Proc.devRef .tc main_v29)) (X (Proc.devRef .tc main_arg2)) := by
  dsimp only [Gen.hostOps1]; after_results_simp; rfl

/-- The line after the second linear map is the one-feature convolution of its result. -/
theorem stage4 (X : Valuation τ sig (Elt Ideal)) :
    StableHlo.after (Gen.hostOps4 (F := Ideal)) X (Proc.devRef .tc main_v76)
      = conv1Of (X (Proc.devRef .tc main_v61)) (X (Proc.devRef .tc main_v3)) (X (Proc.devRef .tc main_v6))
          (X (Proc.devRef .tc main_v29)) (X (Proc.devRef .tc main_arg6)) := by
  dsimp only [Gen.hostOps4]; after_results_simp; rfl

/-! ## The column statistics -/

/-- The number of rows, `100000`, in each of the 64 columns. -/
def N64 : FVec Ideal S64 .f32 := broadcastInDim S64 ![] bcast_S_S64 (constant (F := Ideal) S_ .f32 0x47C35000#32)

/-- The columns' means: the column sums divided by the number of rows. -/
def mean64 (X : Valuation τ sig (Elt Ideal)) : FVec Ideal S64 .f32 :=
  Host.divf (F := Ideal) (shapeCast S64 (X (Proc.devRef .tc main_v47_0)) shapeCasts_S1x64_S64) N64

/-- The columns' means of squares: the column sums of squares divided by the number of rows. -/
def msq64 (X : Valuation τ sig (Elt Ideal)) : FVec Ideal S64 .f32 :=
  Host.divf (F := Ideal) (shapeCast S64 (X (Proc.devRef .tc main_v47_1)) shapeCasts_S1x64_S64) N64

/-- The means, as one row. -/
theorem stage2_mean (X : Valuation τ sig (Elt Ideal)) :
    StableHlo.after (Gen.hostOps2 (F := Ideal)) X (Proc.devRef .tc main_v56)
      = shapeCast S1x64 (mean64 X) shapeCasts_S64_S1x64 := by
  dsimp only [Gen.hostOps2]; after_results_simp; rfl

/-- The variances, each the mean of the squares minus the squared mean, as one row. -/
theorem stage2_var (X : Valuation τ sig (Elt Ideal)) :
    StableHlo.after (Gen.hostOps2 (F := Ideal)) X (Proc.devRef .tc main_v57)
      = shapeCast S1x64 (subf (msq64 X) (mulf (mean64 X) (mean64 X))) shapeCasts_S64_S1x64 := by
  dsimp only [Gen.hostOps2]; after_results_simp; rfl

/-- The scale, as one row. -/
theorem stage2_scale (X : Valuation τ sig (Elt Ideal)) :
    StableHlo.after (Gen.hostOps2 (F := Ideal)) X (Proc.devRef .tc main_v58)
      = shapeCast S1x64 (X (Proc.devRef .tc main_arg3)) shapeCasts_S64_S1x64 := by
  dsimp only [Gen.hostOps2]; after_results_simp; rfl

/-- The shift, as one row. -/
theorem stage2_shift (X : Valuation τ sig (Elt Ideal)) :
    StableHlo.after (Gen.hostOps2 (F := Ideal)) X (Proc.devRef .tc main_v59)
      = shapeCast S1x64 (X (Proc.devRef .tc main_arg4)) shapeCasts_S64_S1x64 := by
  dsimp only [Gen.hostOps2]; after_results_simp; rfl

/-- The first layer's output is not written by the statistics line. -/
theorem stage2_keep (X : Valuation τ sig (Elt Ideal)) :
    StableHlo.after (Gen.hostOps2 (F := Ideal)) X (Proc.devRef .tc main_v46) = X (Proc.devRef .tc main_v46) := by
  dsimp only [Gen.hostOps2]; after_results_simp

/-! ## The final reshape -/

/-- The last line reshapes the one-column result into a vector. -/
theorem stage5 (X : Valuation τ sig (Elt Ideal)) :
    StableHlo.after (Gen.hostOps5 (F := Ideal)) X (Proc.devRef .tc main_v78)
      = shapeCast S100000 (X (Proc.devRef .tc main_v77)) shapeCasts_S100000x1_S100000 := by
  dsimp only [Gen.hostOps5]; after_results_simp; rfl

/-! ## The buffers a line does not write keep their contents

The edge ends, the edge weights, and the later layers' parameters pass unchanged through the first convolution, the
statistics and the second convolution. -/

theorem keep1_main_v3 (X : Valuation τ sig (Elt Ideal)) :
    StableHlo.after (Gen.hostOps1 (F := Ideal)) X (Proc.devRef .tc main_v3) = X (Proc.devRef .tc main_v3) := by
  dsimp only [Gen.hostOps1]; after_results_simp

theorem keep1_main_v6 (X : Valuation τ sig (Elt Ideal)) :
    StableHlo.after (Gen.hostOps1 (F := Ideal)) X (Proc.devRef .tc main_v6) = X (Proc.devRef .tc main_v6) := by
  dsimp only [Gen.hostOps1]; after_results_simp

theorem keep1_main_v29 (X : Valuation τ sig (Elt Ideal)) :
    StableHlo.after (Gen.hostOps1 (F := Ideal)) X (Proc.devRef .tc main_v29) = X (Proc.devRef .tc main_v29) := by
  dsimp only [Gen.hostOps1]; after_results_simp

theorem keep1_main_arg3 (X : Valuation τ sig (Elt Ideal)) :
    StableHlo.after (Gen.hostOps1 (F := Ideal)) X (Proc.devRef .tc main_arg3) = X (Proc.devRef .tc main_arg3) := by
  dsimp only [Gen.hostOps1]; after_results_simp

theorem keep1_main_arg4 (X : Valuation τ sig (Elt Ideal)) :
    StableHlo.after (Gen.hostOps1 (F := Ideal)) X (Proc.devRef .tc main_arg4) = X (Proc.devRef .tc main_arg4) := by
  dsimp only [Gen.hostOps1]; after_results_simp

theorem keep1_main_arg5 (X : Valuation τ sig (Elt Ideal)) :
    StableHlo.after (Gen.hostOps1 (F := Ideal)) X (Proc.devRef .tc main_arg5) = X (Proc.devRef .tc main_arg5) := by
  dsimp only [Gen.hostOps1]; after_results_simp

theorem keep1_main_arg6 (X : Valuation τ sig (Elt Ideal)) :
    StableHlo.after (Gen.hostOps1 (F := Ideal)) X (Proc.devRef .tc main_arg6) = X (Proc.devRef .tc main_arg6) := by
  dsimp only [Gen.hostOps1]; after_results_simp

theorem keep2_main_v3 (X : Valuation τ sig (Elt Ideal)) :
    StableHlo.after (Gen.hostOps2 (F := Ideal)) X (Proc.devRef .tc main_v3) = X (Proc.devRef .tc main_v3) := by
  dsimp only [Gen.hostOps2]; after_results_simp

theorem keep2_main_v6 (X : Valuation τ sig (Elt Ideal)) :
    StableHlo.after (Gen.hostOps2 (F := Ideal)) X (Proc.devRef .tc main_v6) = X (Proc.devRef .tc main_v6) := by
  dsimp only [Gen.hostOps2]; after_results_simp

theorem keep2_main_v29 (X : Valuation τ sig (Elt Ideal)) :
    StableHlo.after (Gen.hostOps2 (F := Ideal)) X (Proc.devRef .tc main_v29) = X (Proc.devRef .tc main_v29) := by
  dsimp only [Gen.hostOps2]; after_results_simp

theorem keep2_main_arg3 (X : Valuation τ sig (Elt Ideal)) :
    StableHlo.after (Gen.hostOps2 (F := Ideal)) X (Proc.devRef .tc main_arg3) = X (Proc.devRef .tc main_arg3) := by
  dsimp only [Gen.hostOps2]; after_results_simp

theorem keep2_main_arg4 (X : Valuation τ sig (Elt Ideal)) :
    StableHlo.after (Gen.hostOps2 (F := Ideal)) X (Proc.devRef .tc main_arg4) = X (Proc.devRef .tc main_arg4) := by
  dsimp only [Gen.hostOps2]; after_results_simp

theorem keep2_main_arg5 (X : Valuation τ sig (Elt Ideal)) :
    StableHlo.after (Gen.hostOps2 (F := Ideal)) X (Proc.devRef .tc main_arg5) = X (Proc.devRef .tc main_arg5) := by
  dsimp only [Gen.hostOps2]; after_results_simp

theorem keep2_main_arg6 (X : Valuation τ sig (Elt Ideal)) :
    StableHlo.after (Gen.hostOps2 (F := Ideal)) X (Proc.devRef .tc main_arg6) = X (Proc.devRef .tc main_arg6) := by
  dsimp only [Gen.hostOps2]; after_results_simp

theorem keep4_main_v3 (X : Valuation τ sig (Elt Ideal)) :
    StableHlo.after (Gen.hostOps4 (F := Ideal)) X (Proc.devRef .tc main_v3) = X (Proc.devRef .tc main_v3) := by
  dsimp only [Gen.hostOps4]; after_results_simp

theorem keep4_main_v6 (X : Valuation τ sig (Elt Ideal)) :
    StableHlo.after (Gen.hostOps4 (F := Ideal)) X (Proc.devRef .tc main_v6) = X (Proc.devRef .tc main_v6) := by
  dsimp only [Gen.hostOps4]; after_results_simp

theorem keep4_main_v29 (X : Valuation τ sig (Elt Ideal)) :
    StableHlo.after (Gen.hostOps4 (F := Ideal)) X (Proc.devRef .tc main_v29) = X (Proc.devRef .tc main_v29) := by
  dsimp only [Gen.hostOps4]; after_results_simp

theorem keep4_main_arg3 (X : Valuation τ sig (Elt Ideal)) :
    StableHlo.after (Gen.hostOps4 (F := Ideal)) X (Proc.devRef .tc main_arg3) = X (Proc.devRef .tc main_arg3) := by
  dsimp only [Gen.hostOps4]; after_results_simp

theorem keep4_main_arg4 (X : Valuation τ sig (Elt Ideal)) :
    StableHlo.after (Gen.hostOps4 (F := Ideal)) X (Proc.devRef .tc main_arg4) = X (Proc.devRef .tc main_arg4) := by
  dsimp only [Gen.hostOps4]; after_results_simp

theorem keep4_main_arg5 (X : Valuation τ sig (Elt Ideal)) :
    StableHlo.after (Gen.hostOps4 (F := Ideal)) X (Proc.devRef .tc main_arg5) = X (Proc.devRef .tc main_arg5) := by
  dsimp only [Gen.hostOps4]; after_results_simp

theorem keep4_main_arg6 (X : Valuation τ sig (Elt Ideal)) :
    StableHlo.after (Gen.hostOps4 (F := Ideal)) X (Proc.devRef .tc main_arg6) = X (Proc.devRef .tc main_arg6) := by
  dsimp only [Gen.hostOps4]; after_results_simp

end Cert.KernelIdeal.FoldStages

end
-- ==== Proof.VarianceLaw.lean ====
/-
  The one algebraic law of this certificate, over the reals.

  For a finite family `a` of real numbers with `n` members (`n ≠ 0`), write `μ = (∑ a) / n` for its mean.
  The mean of the squared deviations from `μ` is the mean of the squares minus the square of the mean:

      (∑ (a i - μ)²) / n = (∑ (a i)²) / n - μ².

  Expanding the square, `∑ (a i - μ)² = ∑ (a i)² - 2 μ ∑ a i + n μ²`, and `∑ a i = n μ`, so the last two terms
  leave `- n μ²`; dividing by `n` gives the claim. The law uses distributivity, so it is a law of real numbers
  only: on the extended reals it fails as soon as one member is infinite.
-/
import Mathlib

namespace Cert.Stats

open Finset

/-- The mean of the squared deviations from the mean is the mean of the squares minus the squared mean. -/
theorem mean_sq_dev {ι : Type*} [Fintype ι] (a : ι → ℝ) (n : ℝ) (hn : n ≠ 0)
    (hcard : (Fintype.card ι : ℝ) = n) :
    (∑ i, (a i - (∑ j, a j) / n) * (a i - (∑ j, a j) / n)) / n
      = (∑ i, a i * a i) / n - ((∑ j, a j) / n) * ((∑ j, a j) / n) := by
  set μ : ℝ := (∑ j, a j) / n with hμ
  have hsum : ∑ j, a j = n * μ := by rw [hμ]; field_simp
  have hexp : ∑ i, (a i - μ) * (a i - μ) = (∑ i, a i * a i) - 2 * μ * (∑ i, a i) + n * (μ * μ) := by
    have : ∀ i, (a i - μ) * (a i - μ) = a i * a i - 2 * μ * a i + μ * μ := fun i => by ring
    simp only [this, Finset.sum_add_distrib, Finset.sum_sub_distrib, ← Finset.mul_sum, Finset.sum_const,
      Finset.card_univ, nsmul_eq_mul, hcard]
    ring
  rw [hexp, hsum]
  field_simp
  ring

end Cert.Stats
-- ==== Proof.ColumnStats.lean ====
/-
  The column statistics. For an array `A` of 100000 rows and 64 columns and a column `q`, write `S₁ = ∑ₖ A(k,q)`,
  `S₂ = ∑ₖ A(k,q)²` and `N = 100000`. The column's mean is `S₁ / N`. Its variance is DEFINED as the mean of the squared
  deviations from the mean, `(∑ₖ (A(k,q) - S₁/N)²) / N`; the other way to compute it is `S₂ / N - (S₁/N)²`. Over the real
  numbers the two agree. On the extended reals they agree when every `A(k,q)` is a real: then every sum, difference,
  product and quotient by `N` above is a real too, and the identity is the one over the reals carried along the
  embedding of the reals.
-/
import Idealize.ShloMosaic.PureOps.Ideal.Laws
import Idealize.ShloMosaic.Lib.Pipeline.Value
import Idealize.ShloMosaic.Lib.ValueIdx
import proofs.«113359_j37572373905743_1_alg».proof.Proof.Spec
import proofs.«113359_j37572373905743_1_alg».proof.Proof.Finite
import proofs.«113359_j37572373905743_1_alg».proof.Proof.VarianceLaw

noncomputable section

namespace Cert.ColumnStats

open Idealize.ShloMosaic Cert.ReferenceIdeal

/-- The entry in row `k`, column `q` of an array of 100000 rows and 64 columns. -/
abbrev rowCol (k : Fin 100000) (q : Fin 64) : S100000x64.Idx := ValueIdx.ix2 k q

/-- Column `q` of a 64-entry vector. -/
abbrev col (q : Fin 64) : S64.Idx := ValueIdx.ix1 q

/-- A per-column vector repeated down the rows reads, at any entry, that entry's column. -/
theorem rows_apply {F : FTy → Type} [FloatOps F] (v : FVec F S64 .f32) (i : S100000x64.Idx) :
    Cert.Spec.rows (F := F) v i = v (col ⟨(i 1).val, (i 1).isLt⟩) := by
  unfold Cert.Spec.rows
  refine (broadcastInDim_apply _ _ _ i (ValueIdx.ix2 (⟨0, Nat.one_pos⟩ : Fin 1) (⟨(i 1).val, (i 1).isLt⟩ : Fin 64)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ _ v _ (col ⟨(i 1).val, (i 1).isLt⟩) (fun a => match a with
    | ⟨0, _⟩ => by show (i 1).val = if (64 : Nat) = 1 then 0 else (i 1).val; rw [if_neg (by decide)])

/-- The pattern `0x47C35000` denotes the real `100000`, the number of rows. -/
theorem ofBits_rows : Ideal.ofBits .f32 0x47C35000#32 = ((100000 : ℝ) : EReal) := by
  simp [Ideal.ofBits, Ideal.ieee, -EReal.coe_mul]; norm_num

/-- A column's sum: the sum over all rows, started from zero, read at column `q`, is the sum over the 100000 rows
    `k` of the entry at `(k, q)`. -/
theorem colSum_apply (A : FVec Ideal S100000x64 .f32) (hr : S100000x64.ReducesTo [0] S64) (hu : 0 < S_.numel) (q : Fin 64) :
    Host.reduceAdd (F := Ideal) A (constant (F := Ideal) S_ .f32 0x00000000#32) hr hu (col q)
      = ∑ k : Fin 100000, A (rowCol k q) := by
  simp only [Host.reduceAdd, Ideal.hostReduceAdd_def]
  rw [Ideal.hostReduceAdd_single hr (by decide)]
  show Ideal.ofBits .f32 0x00000000#32 + _ = _
  rw [Ideal.ofBits_zero_f32, zero_add]
  refine Finset.sum_congr rfl fun k _ => ?_
  exact congrArg A (funext fun a => Fin.ext (by match a with | ⟨0, _⟩ => rfl | ⟨1, _⟩ => rfl))

/-- The mean of column `q`: the column's sum divided by the number of rows. No finiteness is needed. -/
theorem colMean_apply (A : FVec Ideal S100000x64 .f32) (q : Fin 64) :
    Cert.Spec.colMean (F := Ideal) A (col q)
      = FloatOps.hostDivf (∑ k : Fin 100000, A (rowCol k q)) (FloatOps.ofBits .f32 0x47C35000#32) := by
  unfold Cert.Spec.colMean
  show FloatOps.hostDivf (Host.reduceAdd (F := Ideal) A _ _ _ (col q)) (FloatOps.ofBits .f32 0x47C35000#32) = _
  rw [colSum_apply]

/-- The embedding of the reals in the extended reals commutes with finite sums: by induction on the index set. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The variance law on the extended reals, for 100000 REAL numbers `a k`: every quantity in it is then a real, division
    by the real `100000` is multiplication by its reciprocal, and the law is the one over the reals. -/
theorem var_law_ereal (a : Fin 100000 → ℝ) :
    Ideal.div (∑ k, ((a k : EReal) - Ideal.div (∑ j, (a j : EReal)) ((100000 : ℝ) : EReal))
        * ((a k : EReal) - Ideal.div (∑ j, (a j : EReal)) ((100000 : ℝ) : EReal))) ((100000 : ℝ) : EReal)
      = Ideal.div (∑ k, (a k : EReal) * (a k : EReal)) ((100000 : ℝ) : EReal)
        - Ideal.div (∑ j, (a j : EReal)) ((100000 : ℝ) : EReal) * Ideal.div (∑ j, (a j : EReal)) ((100000 : ℝ) : EReal) := by
  have hN : (100000 : ℝ) ≠ 0 := by norm_num
  simp only [Ideal.div_coe hN, coe_sum, ← EReal.coe_mul, ← EReal.coe_sub]
  rw [EReal.coe_eq_coe_iff]
  simp only [mul_one_div]
  exact Cert.Stats.mean_sq_dev a 100000 hN (by simp)

/-- The variance of column `q` of an array of REAL numbers: the mean of the squared deviations from the column's mean,
    which is how it is defined, equals the mean of the squares minus the squared mean. -/
theorem colVar_apply (A : FVec Ideal S100000x64 .f32) (hA : Cert.Finite.IsReal A) (q : Fin 64) :
    Cert.Spec.colVar (F := Ideal) A (col q)
      = FloatOps.subf (FloatOps.hostDivf (∑ k : Fin 100000, A (rowCol k q) * A (rowCol k q)) (FloatOps.ofBits .f32 0x47C35000#32))
          (FloatOps.mulf (FloatOps.hostDivf (∑ k : Fin 100000, A (rowCol k q)) (FloatOps.ofBits .f32 0x47C35000#32))
            (FloatOps.hostDivf (∑ k : Fin 100000, A (rowCol k q)) (FloatOps.ofBits .f32 0x47C35000#32))) := by
  unfold Cert.Spec.colVar
  show FloatOps.hostDivf (Host.reduceAdd (F := Ideal) (mulf (subf A (Cert.Spec.rows (Cert.Spec.colMean A)))
      (subf A (Cert.Spec.rows (Cert.Spec.colMean A)))) _ _ _ (col q)) (FloatOps.ofBits .f32 0x47C35000#32) = _
  rw [colSum_apply]
  have hrow : ∀ k : Fin 100000, Cert.Spec.rows (F := Ideal) (Cert.Spec.colMean (F := Ideal) A) (rowCol k q)
      = Ideal.div (∑ j : Fin 100000, A (rowCol j q)) (Ideal.ofBits .f32 0x47C35000#32) := fun k => by
    rw [rows_apply]; exact colMean_apply A q
  have hA' : ∀ k : Fin 100000, ∃ r : ℝ, A (rowCol k q) = (r : EReal) := fun k => hA (rowCol k q)
  choose a ha using hA'
  show Ideal.div (∑ k : Fin 100000, (A (rowCol k q) - Cert.Spec.rows (F := Ideal) (Cert.Spec.colMean (F := Ideal) A) (rowCol k q))
        * (A (rowCol k q) - Cert.Spec.rows (F := Ideal) (Cert.Spec.colMean (F := Ideal) A) (rowCol k q))) (Ideal.ofBits .f32 0x47C35000#32)
      = Ideal.div (∑ k : Fin 100000, A (rowCol k q) * A (rowCol k q)) (Ideal.ofBits .f32 0x47C35000#32)
        - Ideal.div (∑ k : Fin 100000, A (rowCol k q)) (Ideal.ofBits .f32 0x47C35000#32)
          * Ideal.div (∑ k : Fin 100000, A (rowCol k q)) (Ideal.ofBits .f32 0x47C35000#32)
  simp only [hrow, ha, ofBits_rows]
  exact var_law_ereal a

end Cert.ColumnStats

end
-- ==== Proof.Bridges.lean ====
/-
  Two stages of the network, computed two ways.

  The logistic function. One program applies `1 / (1 + e^(-z))` to every entry as a single operation; the other
  divides the constant one by one plus the exponential of the negated entry. On exact extended reals these are the
  same function, the constant's bit pattern denoting `1`.

  The normalisation. For an array `A` of 100000 rows and 64 columns, one program centres every column at its mean
  `(∑ₖ A(k,q)) / N`, divides by the square root of the column's variance — the mean of the squared deviations from
  the mean — plus a small constant, scales by `γ q`, shifts by `β q` and clamps at zero. The other first forms the
  two column sums `s1 q = ∑ₖ A(k,q)` and `s2 q = ∑ₖ A(k,q)²`, takes `s1 q / N` for the mean and
  `s2 q / N − (s1 q / N)²` for the variance, lays these and `γ`, `β` out as 1 × 64 arrays, and applies the same
  entry-wise expression. For an array of real numbers the two variances agree, so entry by entry the two programs
  evaluate one expression at the same five numbers. A 1 × 64 array and a 64-entry vector hold the same numbers in the
  same row-by-row order: entry `(0, q)` of the one is entry `q` of the other.
-/
import Idealize.ShloMosaic.PureOps.Ideal.Laws
import Idealize.ShloMosaic.Lib.Pipeline.Value
import Idealize.ShloMosaic.Lib.ValueIdx
import proofs.«113359_j37572373905743_1_alg».proof.Proof.Spec
import proofs.«113359_j37572373905743_1_alg».proof.Proof.NormSpec
import proofs.«113359_j37572373905743_1_alg».proof.Proof.Finite
import proofs.«113359_j37572373905743_1_alg».proof.Proof.ColumnStats

noncomputable section

namespace Cert.Bridges

open Idealize.ShloMosaic Cert.ReferenceIdeal
open Cert.ColumnStats (rowCol col)
open Cert.ReferenceIdeal.Facts₀

/-! ## The logistic function -/

/-- The logistic function `1 / (1 + e^(-z))`, entry by entry, is the reference's last stage: the stage divides the
    constant one by one plus the exponential of the negated entry, and the constant's bit pattern denotes `1`. -/
theorem sigm_eq (z : S100000x1.Idx → EReal) :
    (fun i => Ideal.logistic (z i)) = Cert.Spec.sigm (F := Ideal) z := by
  funext i
  unfold Cert.Spec.sigm
  show Ideal.logistic (z i)
    = FloatOps.hostDivf (Ideal.ofBits .f32 0x3F800000#32)
        (FloatOps.addf (Ideal.ofBits .f32 0x3F800000#32) (FloatOps.hostUnary .exp (FloatOps.hostNegf (z i))))
  rw [Cert.Finite.ofBits_one]
  rfl

/-! ## The normalisation -/

/-- The entry of a 1 × 64 array above a column, and that column of a 64-entry vector, sit at the same place when
    the arrays are laid out row by row: position `0 · 64 + q = q`. -/
theorem top_position (i : S100000x64.Idx) :
    (S1x64.rowMajor (Cert.KernelIdeal.NormRegion.top i)).val = (S64.rowMajor (col ⟨(i 1).val, (i 1).isLt⟩)).val := by
  rw [Shape.rowMajor_val_two, Shape.rowMajor_val_one]
  show 0 * 64 + (i 1).val = (i 1).val
  omega

/-- The normalisation as the kernel's region computes it IS the reference's. The region is handed, besides the
    array `A`, four 1 × 64 arrays made from the column sums `s1 = ∑ₖ A(k, ·)`, `s2 = ∑ₖ A(k, ·)²` and from `γ`, `β`:
    the mean `s1 / N`, the spread `s2 / N − (s1 / N)²`, and `γ`, `β` laid out as rows. Above column `q` these read
    the column's mean, its variance (for an array of reals the mean of the squares minus the squared mean is the mean
    of the squared deviations), `γ q` and `β q`, which is what the reference repeats down the rows. Entry by entry
    both sides are then the same expression of the same five numbers. -/
theorem norm_eq (A : S100000x64.Idx → EReal) (hA : Cert.Finite.IsReal A) (s1 s2 : S1x64.Idx → EReal) (γ β : S64.Idx → EReal)
    (hs1 : ∀ y, s1 y = ∑ k : Fin 100000, A (rowCol k (y 1)))
    (hs2 : ∀ y, s2 y = ∑ k : Fin 100000, A (rowCol k (y 1)) * A (rowCol k (y 1)))
    (h1 : S1x64.ShapeCasts S64) (h2 : S64.ShapeCasts S1x64) (hb : S_.BroadcastsInDim S64 (![] : Fin 0 → Fin S64.rank)) :
    Cert.KernelIdeal.NormRegion.normOf A
      (shapeCast S1x64 (Host.divf (F := Ideal) (shapeCast S64 s1 h1) (broadcastInDim S64 ![] hb (constant (F := Ideal) S_ .f32 0x47C35000#32))) h2)
      (shapeCast S1x64 (subf (Host.divf (F := Ideal) (shapeCast S64 s2 h1) (broadcastInDim S64 ![] hb (constant (F := Ideal) S_ .f32 0x47C35000#32))) (mulf (Host.divf (F := Ideal) (shapeCast S64 s1 h1) (broadcastInDim S64 ![] hb (constant (F := Ideal) S_ .f32 0x47C35000#32))) (Host.divf (F := Ideal) (shapeCast S64 s1 h1) (broadcastInDim S64 ![] hb (constant (F := Ideal) S_ .f32 0x47C35000#32))))) h2)
      (shapeCast S1x64 γ h2) (shapeCast S1x64 β h2)
    = Cert.Spec.normRelu (F := Ideal) A γ β := by
  funext i
  -- the column of entry `i`, and the two column sums read above it
  have hpos := top_position i
  have c1 : shapeCast S64 s1 h1 (col ⟨(i 1).val, (i 1).isLt⟩) = ∑ k : Fin 100000, A (rowCol k ⟨(i 1).val, (i 1).isLt⟩) :=
    (shapeCast_apply s1 h1 _ (Cert.KernelIdeal.NormRegion.top i) hpos).trans (hs1 _)
  have c2 : shapeCast S64 s2 h1 (col ⟨(i 1).val, (i 1).isLt⟩)
      = ∑ k : Fin 100000, A (rowCol k ⟨(i 1).val, (i 1).isLt⟩) * A (rowCol k ⟨(i 1).val, (i 1).isLt⟩) :=
    (shapeCast_apply s2 h1 _ (Cert.KernelIdeal.NormRegion.top i) hpos).trans (hs2 _)
  -- the mean above the entry's column is the reference's column mean, repeated down the rows
  have eMean : shapeCast S1x64 (Host.divf (F := Ideal) (shapeCast S64 s1 h1) (broadcastInDim S64 ![] hb (constant (F := Ideal) S_ .f32 0x47C35000#32))) h2 (Cert.KernelIdeal.NormRegion.top i)
      = Cert.Spec.rows (F := Ideal) (Cert.Spec.colMean (F := Ideal) A) i := by
    rw [Cert.ColumnStats.rows_apply, Cert.ColumnStats.colMean_apply, ← c1]
    exact shapeCast_apply _ h2 _ (col ⟨(i 1).val, (i 1).isLt⟩) hpos.symm
  -- the spread above the entry's column is the reference's column variance
  have eVar : shapeCast S1x64 (subf (Host.divf (F := Ideal) (shapeCast S64 s2 h1) (broadcastInDim S64 ![] hb (constant (F := Ideal) S_ .f32 0x47C35000#32))) (mulf (Host.divf (F := Ideal) (shapeCast S64 s1 h1) (broadcastInDim S64 ![] hb (constant (F := Ideal) S_ .f32 0x47C35000#32))) (Host.divf (F := Ideal) (shapeCast S64 s1 h1) (broadcastInDim S64 ![] hb (constant (F := Ideal) S_ .f32 0x47C35000#32))))) h2 (Cert.KernelIdeal.NormRegion.top i)
      = Cert.Spec.colVar (F := Ideal) A (col ⟨(i 1).val, (i 1).isLt⟩) := by
    rw [Cert.ColumnStats.colVar_apply A hA, ← c1, ← c2]
    exact shapeCast_apply _ h2 _ (col ⟨(i 1).val, (i 1).isLt⟩) hpos.symm
  -- `γ` and `β` laid out as rows read, above the entry's column, their entry for that column
  have eGamma : shapeCast S1x64 γ h2 (Cert.KernelIdeal.NormRegion.top i) = Cert.Spec.rows (F := Ideal) γ i :=
    (shapeCast_apply γ h2 _ (col ⟨(i 1).val, (i 1).isLt⟩) hpos.symm).trans (Cert.ColumnStats.rows_apply (F := Ideal) γ i).symm
  have eBeta : shapeCast S1x64 β h2 (Cert.KernelIdeal.NormRegion.top i) = Cert.Spec.rows (F := Ideal) β i :=
    (shapeCast_apply β h2 _ (col ⟨(i 1).val, (i 1).isLt⟩) hpos.symm).trans (Cert.ColumnStats.rows_apply (F := Ideal) β i).symm
  -- the inverse square root of the spread plus the small constant, likewise
  have eScale : FloatOps.rsqrt (FloatOps.addf (shapeCast S1x64 (subf (Host.divf (F := Ideal) (shapeCast S64 s2 h1) (broadcastInDim S64 ![] hb (constant (F := Ideal) S_ .f32 0x47C35000#32))) (mulf (Host.divf (F := Ideal) (shapeCast S64 s1 h1) (broadcastInDim S64 ![] hb (constant (F := Ideal) S_ .f32 0x47C35000#32))) (Host.divf (F := Ideal) (shapeCast S64 s1 h1) (broadcastInDim S64 ![] hb (constant (F := Ideal) S_ .f32 0x47C35000#32))))) h2 (Cert.KernelIdeal.NormRegion.top i)) (FloatOps.ofBits .f32 0x3727C5AC#32))
      = Cert.Spec.rows (F := Ideal) (Host.rsqrt (F := Ideal) (addf (Cert.Spec.colVar (F := Ideal) A) (broadcastInDim S64 ![] bcast_S_S64 (constant (F := Ideal) S_ .f32 0x3727C5AC#32)))) i := by
    rw [eVar, Cert.ColumnStats.rows_apply]
    rfl
  unfold Cert.KernelIdeal.NormRegion.normOf Cert.Spec.normRelu
  exact congrArg₂ (FloatOps.maximumf (F := Ideal) (φ := .f32))
    (congrArg₂ (FloatOps.addf (F := Ideal) (φ := .f32))
      (congrArg₂ (FloatOps.mulf (F := Ideal) (φ := .f32))
        (congrArg₂ (FloatOps.mulf (F := Ideal) (φ := .f32))
          (congrArg₂ (FloatOps.subf (F := Ideal) (φ := .f32)) rfl eMean) eScale) eGamma) eBeta) rfl

end Cert.Bridges

end
-- ==== Proof.FoldChain.lean ====
/-
  The idealized kernel program's result, read back through the whole program to the launch arguments.

  The program is five kernel regions among stretches of host operations, and the contents of its buffers at the
  boundary after each segment are a fold through the segments. This module walks that fold forward, one boundary
  at a time, naming what each buffer that matters holds as a stage of `Cert.Spec` applied to the launch arguments:

    * the source list, target list and edge weights of the graph, made by host operations from the edge list;
    * the first linear map `x · w₁`, which the first region computes block by block;
    * the first graph convolution of it (host operations), the first layer's output `h`;
    * the column sums of `h` and of its squares, which the second region accumulates over its ten grid points,
      and from them the column means and the variance in the form "mean of squares minus squared mean";
    * the normalised, scaled, shifted and clamped array, which the third region computes block by block: this
      is the reference's normalisation, whose variance is the mean of squared deviations, because every entry
      of `h` is a real number when the arguments are;
    * the second linear map (the fourth region), the second convolution (host operations), and the logistic
      function (the fifth region); a final reshape gives one score per node.

  A buffer that a segment neither writes nor, for a region, holds as an output keeps its contents across the
  segment; the edge lists, the weights and the arguments are carried forward that way.
-/
import proofs.«113359_j37572373905743_1_alg».proof.Proof.Gen.KernelIdeal.Frame
import proofs.«113359_j37572373905743_1_alg».proof.Proof.Spec
import proofs.«113359_j37572373905743_1_alg».proof.Proof.Finite
import proofs.«113359_j37572373905743_1_alg».proof.Proof.MatmulRegions
import proofs.«113359_j37572373905743_1_alg».proof.Proof.StatsRegion
import proofs.«113359_j37572373905743_1_alg».proof.Proof.NormRegion
import proofs.«113359_j37572373905743_1_alg».proof.Proof.SigmoidRegion
import proofs.«113359_j37572373905743_1_alg».proof.Proof.FoldEntry
import proofs.«113359_j37572373905743_1_alg».proof.Proof.FoldStages
import proofs.«113359_j37572373905743_1_alg».proof.Proof.Bridges
import proofs.«113359_j37572373905743_1_alg».proof.Proof.ColumnStats
import Idealize.ShloMosaic.Lib.StableHlo.Run
import Idealize.ShloMosaic.PureOps.Ideal

set_option maxRecDepth 16384

noncomputable section

namespace Cert.KernelIdeal.FoldChain

open Cert.KernelIdeal Cert.KernelIdeal.Gen
open Idealize.ShloMosaic Idealize.ShloMosaic.TcCoe Idealize.SL.Sem Idealize.ShloMosaic.StableHlo
open Cert.KernelIdeal.FoldEntry Cert.KernelIdeal.FoldStages

variable (m : (ℓ : Loc nD τ sig) → Buf (Elt Ideal) ℓ) (ρ : Dev nD → PrngReg) (c : Dev nD)

/-! ## The launch arguments -/

/-- The node features. -/
abbrev x0 : FVec Ideal Cert.ReferenceIdeal.S100000x128 .f32 := m ((c : Thread nD τ).loc main_arg0)
/-- The first layer's matrix. -/
abbrev x1 : FVec Ideal Cert.ReferenceIdeal.S128x64 .f32 := m ((c : Thread nD τ).loc main_arg1)
/-- The first layer's bias. -/
abbrev x2 : FVec Ideal Cert.ReferenceIdeal.S64 .f32 := m ((c : Thread nD τ).loc main_arg2)
/-- The normalisation's scale. -/
abbrev x3 : FVec Ideal Cert.ReferenceIdeal.S64 .f32 := m ((c : Thread nD τ).loc main_arg3)
/-- The normalisation's shift. -/
abbrev x4 : FVec Ideal Cert.ReferenceIdeal.S64 .f32 := m ((c : Thread nD τ).loc main_arg4)
/-- The second layer's matrix. -/
abbrev x5 : FVec Ideal Cert.ReferenceIdeal.S64x1 .f32 := m ((c : Thread nD τ).loc main_arg5)
/-- The second layer's bias. -/
abbrev x6 : FVec Ideal Cert.ReferenceIdeal.S1 .f32 := m ((c : Thread nD τ).loc main_arg6)
/-- The edge list. -/
abbrev edges : IVec Cert.ReferenceIdeal.S2x3200000 32 := m ((c : Thread nD τ).loc main_arg7)

/-- The first layer's output. -/
abbrev hidden : Cert.ReferenceIdeal.S100000x64.Idx → EReal :=
  Cert.Spec.layer1 (F := Ideal) (x0 m c) (x1 m c) (x2 m c) (edges m c)

/-! ## Buffers carried across segments -/

/-- A buffer that no region up to the fourth holds as an array, and that neither of the two stretches of host
    operations between them writes, holds before the fifth region's stretch what it held at the first region's entry. -/
theorem carried_to9 (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (k1 : ∀ X : Valuation τ sig (Elt Ideal), StableHlo.after hostOps1 X (Proc.devRef .tc b) = X (Proc.devRef .tc b))
    (k2 : ∀ X : Valuation τ sig (Elt Ideal), StableHlo.after hostOps2 X (Proc.devRef .tc b) = X (Proc.devRef .tc b)) :
    W9 m ρ c (Proc.devRef .tc b) = W3 m ρ c (Proc.devRef .tc b) :=
  calc W9 m ρ c (Proc.devRef .tc b)
    _ = W8 m ρ c (Proc.devRef .tc b) := W9_of_ne m ρ c b h3
    _ = W7 m ρ c (Proc.devRef .tc b) := W8_of_ne m ρ c b h2
    _ = W6 m ρ c (Proc.devRef .tc b) := k2 _
    _ = W5 m ρ c (Proc.devRef .tc b) := W6_of_ne m ρ c b h1
    _ = W4 m ρ c (Proc.devRef .tc b) := k1 _
    _ = W3 m ρ c (Proc.devRef .tc b) := W4_of_ne m ρ c b h0

/-- The same up to the third region's entry side: before the second stretch of host operations between regions. -/
theorem carried_to6 (b : Ref sig .tc) (h0 : ∀ w, Pipeline.arrRef spec0 w ≠ b) (h1 : ∀ w, Pipeline.arrRef spec1 w ≠ b)
    (k1 : ∀ X : Valuation τ sig (Elt Ideal), StableHlo.after hostOps1 X (Proc.devRef .tc b) = X (Proc.devRef .tc b)) :
    W6 m ρ c (Proc.devRef .tc b) = W3 m ρ c (Proc.devRef .tc b) :=
  calc W6 m ρ c (Proc.devRef .tc b)
    _ = W5 m ρ c (Proc.devRef .tc b) := W6_of_ne m ρ c b h1
    _ = W4 m ρ c (Proc.devRef .tc b) := k1 _
    _ = W3 m ρ c (Proc.devRef .tc b) := W4_of_ne m ρ c b h0

/-- And up to the fourth region's entry. -/
theorem carried_to8 (b : Ref sig .tc) (h0 : ∀ w, Pipeline.arrRef spec0 w ≠ b) (h1 : ∀ w, Pipeline.arrRef spec1 w ≠ b)
    (h2 : ∀ w, Pipeline.arrRef spec2 w ≠ b)
    (k1 : ∀ X : Valuation τ sig (Elt Ideal), StableHlo.after hostOps1 X (Proc.devRef .tc b) = X (Proc.devRef .tc b))
    (k2 : ∀ X : Valuation τ sig (Elt Ideal), StableHlo.after hostOps2 X (Proc.devRef .tc b) = X (Proc.devRef .tc b)) :
    W8 m ρ c (Proc.devRef .tc b) = W3 m ρ c (Proc.devRef .tc b) :=
  calc W8 m ρ c (Proc.devRef .tc b)
    _ = W7 m ρ c (Proc.devRef .tc b) := W8_of_ne m ρ c b h2
    _ = W6 m ρ c (Proc.devRef .tc b) := k2 _
    _ = W3 m ρ c (Proc.devRef .tc b) := carried_to6 m ρ c b h0 h1 k1

/-! ## The first layer -/

/-- After the first region its output is the first linear map of the features. -/
theorem lin1_at4 : W4 m ρ c (Proc.devRef .tc main_v30) = Cert.Spec.lin1 (F := Ideal) (x0 m c) (x1 m c) :=
  (W4_arr m ρ c 2).trans ((Cert.KernelIdeal.MatmulRegions.region0_array (V3 m ρ) c).trans
    (congrArg₂ (Cert.Spec.lin1 (F := Ideal)) (entry_arg0 m ρ c) (entry_arg1 m ρ c)))

/-- After the convolution's host operations the first layer's output is in place. -/
theorem hidden_at5 : W5 m ρ c (Proc.devRef .tc main_v46) = hidden m c := by
  show StableHlo.after hostOps1 (W4 m ρ c) (Proc.devRef .tc main_v46) = _
  rw [stage1, lin1_at4, W4_of_ne m ρ c main_v3 (by decide), W4_of_ne m ρ c main_v6 (by decide),
    W4_of_ne m ρ c main_v29 (by decide), W4_of_ne m ρ c main_arg2 (by decide),
    entry_src, entry_dst, entry_weight, entry_arg2]
  exact conv64Of_spec _ _ _

/-- The second region reads it and leaves it in place. -/
theorem hidden_at6 : W6 m ρ c (Proc.devRef .tc main_v46) = hidden m c :=
  ((W6_arr m ρ c 0).trans (((dat1 (F := Ideal) (V5 m ρ) c).arrAt_in 0 rfl _).trans (A_eq1 (V5 m ρ) c 0))).trans
    (hidden_at5 m ρ c)

/-- Every entry of the first layer's output is a real number when the features, the matrix and the bias are. -/
theorem hidden_real (hx : Cert.Finite.IsReal (x0 m c) ∧ Cert.Finite.IsReal (x1 m c) ∧ Cert.Finite.IsReal (x2 m c)) :
    Cert.Finite.IsReal (hidden m c) :=
  Cert.Finite.agg1_real (x0 m c) (x1 m c) (x2 m c) (edges m c) hx.1 hx.2.1 hx.2.2

/-! ## The column statistics and the normalisation -/

/-- Row `k`, column `j` of the array, in either of the two spellings used for it. -/
theorem rowCol_eq (k : Fin 100000) (j : Fin 64) :
    Cert.KernelIdeal.StatsRegion.rowCol k j = Cert.ColumnStats.rowCol k j :=
  funext fun a => Fin.ext (by
    match a with
    | ⟨0, _⟩ => rfl
    | ⟨1, _⟩ => rfl)

/-- After the second region its first output holds, per column, the sum of the first layer's output over all rows. -/
theorem sums_at6 (y : S1x64.Idx) : W6 m ρ c (Proc.devRef .tc main_v47_0) y
    = ∑ k : Fin 100000, hidden m c (Cert.ColumnStats.rowCol k (y 1)) := by
  have h := Cert.KernelIdeal.StatsRegion.region1_sum (V5 m ρ) c y
  have e : Cert.KernelIdeal.StatsRegion.input (V5 m ρ) c = hidden m c := hidden_at5 m ρ c
  rw [e] at h
  have g := congrFun (W6_arr m ρ c 1) y
  have conv : (∑ k : Fin 100000, hidden m c (Cert.KernelIdeal.StatsRegion.rowCol k (y 1)))
      = ∑ k : Fin 100000, hidden m c (Cert.ColumnStats.rowCol k (y 1)) :=
    Finset.sum_congr rfl fun k _ => congrArg (hidden m c) (rowCol_eq k (y 1))
  exact (g.trans h).trans conv

/-- And its second output the sum of the squares. -/
theorem sumsqs_at6 (y : S1x64.Idx) : W6 m ρ c (Proc.devRef .tc main_v47_1) y
    = ∑ k : Fin 100000, hidden m c (Cert.ColumnStats.rowCol k (y 1)) * hidden m c (Cert.ColumnStats.rowCol k (y 1)) := by
  have h := Cert.KernelIdeal.StatsRegion.region1_sumsq (V5 m ρ) c y
  have e : Cert.KernelIdeal.StatsRegion.input (V5 m ρ) c = hidden m c := hidden_at5 m ρ c
  rw [e] at h
  have g := congrFun (W6_arr m ρ c 2) y
  have conv : (∑ k : Fin 100000, hidden m c (Cert.KernelIdeal.StatsRegion.rowCol k (y 1)) * hidden m c (Cert.KernelIdeal.StatsRegion.rowCol k (y 1)))
      = ∑ k : Fin 100000, hidden m c (Cert.ColumnStats.rowCol k (y 1)) * hidden m c (Cert.ColumnStats.rowCol k (y 1)) :=
    Finset.sum_congr rfl fun k _ => congrArg (fun i => hidden m c i * hidden m c i) (rowCol_eq k (y 1))
  exact (g.trans h).trans conv

/-- After the third region its output is the reference's normalisation of the first layer's output. -/
theorem norm_at8 (hx : Cert.Finite.IsReal (x0 m c) ∧ Cert.Finite.IsReal (x1 m c) ∧ Cert.Finite.IsReal (x2 m c)) :
    W8 m ρ c (Proc.devRef .tc main_v60) = Cert.Spec.normRelu (F := Ideal) (hidden m c) (x3 m c) (x4 m c) := by
  refine (W8_arr m ρ c 5).trans ((Cert.KernelIdeal.NormRegion.array_eq (V7 m ρ) c).trans ?_)
  show Cert.KernelIdeal.NormRegion.normOf (StableHlo.after hostOps2 (W6 m ρ c) (Proc.devRef .tc main_v46))
      (StableHlo.after hostOps2 (W6 m ρ c) (Proc.devRef .tc main_v56)) (StableHlo.after hostOps2 (W6 m ρ c) (Proc.devRef .tc main_v57))
      (StableHlo.after hostOps2 (W6 m ρ c) (Proc.devRef .tc main_v58)) (StableHlo.after hostOps2 (W6 m ρ c) (Proc.devRef .tc main_v59)) = _
  rw [stage2_keep, stage2_mean, stage2_var, stage2_scale, stage2_shift, hidden_at6,
    carried_to6 m ρ c main_arg3 (by decide) (by decide) keep1_main_arg3, entry_arg3,
    carried_to6 m ρ c main_arg4 (by decide) (by decide) keep1_main_arg4, entry_arg4]
  exact Cert.Bridges.norm_eq (hidden m c) (hidden_real m c hx) _ _ (x3 m c) (x4 m c)
    (fun y => sums_at6 m ρ c y) (fun y => sumsqs_at6 m ρ c y) _ _ _

/-! ## The second layer -/

/-- After the fourth region its output is the second linear map of the normalised array. -/
theorem lin2_at9 (hx : Cert.Finite.IsReal (x0 m c) ∧ Cert.Finite.IsReal (x1 m c) ∧ Cert.Finite.IsReal (x2 m c)) :
    W9 m ρ c (Proc.devRef .tc main_v61)
      = Cert.Spec.lin2 (F := Ideal) (Cert.Spec.normRelu (F := Ideal) (hidden m c) (x3 m c) (x4 m c)) (x5 m c) :=
  (W9_arr m ρ c 2).trans ((Cert.KernelIdeal.MatmulRegions.region3_array (V8 m ρ) c).trans
    (congrArg₂ (Cert.Spec.lin2 (F := Ideal)) (norm_at8 m ρ c hx)
      ((carried_to8 m ρ c main_arg5 (by decide) (by decide) (by decide) keep1_main_arg5 keep2_main_arg5).trans (entry_arg5 m ρ c))))

/-- After the second convolution's host operations its output is in place. -/
theorem score_at10 (hx : Cert.Finite.IsReal (x0 m c) ∧ Cert.Finite.IsReal (x1 m c) ∧ Cert.Finite.IsReal (x2 m c)) :
    W10 m ρ c (Proc.devRef .tc main_v76)
      = Cert.Spec.conv1 (F := Ideal)
          (Cert.Spec.lin2 (F := Ideal) (Cert.Spec.normRelu (F := Ideal) (hidden m c) (x3 m c) (x4 m c)) (x5 m c))
          (edges m c) (x6 m c) := by
  show StableHlo.after hostOps4 (W9 m ρ c) (Proc.devRef .tc main_v76) = _
  rw [stage4, lin2_at9 m ρ c hx,
    carried_to9 m ρ c main_v3 (by decide) (by decide) (by decide) (by decide) keep1_main_v3 keep2_main_v3, entry_src,
    carried_to9 m ρ c main_v6 (by decide) (by decide) (by decide) (by decide) keep1_main_v6 keep2_main_v6, entry_dst,
    carried_to9 m ρ c main_v29 (by decide) (by decide) (by decide) (by decide) keep1_main_v29 keep2_main_v29, entry_weight,
    carried_to9 m ρ c main_arg6 (by decide) (by decide) (by decide) (by decide) keep1_main_arg6 keep2_main_arg6, entry_arg6]
  exact conv1Of_spec _ _ _

/-- After the fifth region its output is the logistic function of that. -/
theorem prob_at11 (hx : Cert.Finite.IsReal (x0 m c) ∧ Cert.Finite.IsReal (x1 m c) ∧ Cert.Finite.IsReal (x2 m c)) :
    W11 m ρ c (Proc.devRef .tc main_v77)
      = Cert.Spec.sigm (F := Ideal) (Cert.Spec.conv1 (F := Ideal)
          (Cert.Spec.lin2 (F := Ideal) (Cert.Spec.normRelu (F := Ideal) (hidden m c) (x3 m c) (x4 m c)) (x5 m c))
          (edges m c) (x6 m c)) :=
  (W11_arr m ρ c 1).trans ((Cert.KernelIdeal.SigmoidRegion.array_eq (V10 m ρ) c).trans
    ((congrArg Cert.KernelIdeal.SigmoidRegion.logisticOf (score_at10 m ρ c hx)).trans (Cert.Bridges.sigm_eq _)))

/-- THE RESULT: after the last host operation the result buffer holds the network of `Cert.Spec.result` applied to
    the launch arguments. -/
theorem result_eq (hx : Cert.Finite.IsReal (x0 m c) ∧ Cert.Finite.IsReal (x1 m c) ∧ Cert.Finite.IsReal (x2 m c)) :
    W12 m ρ c (Proc.devRef .tc main_v78)
      = Cert.Spec.result (F := Ideal) (x0 m c) (x1 m c) (x2 m c) (x3 m c) (x4 m c) (x5 m c) (x6 m c) (edges m c) := by
  show StableHlo.after hostOps5 (W11 m ρ c) (Proc.devRef .tc main_v78) = _
  rw [stage5, prob_at11 m ρ c hx]
  rfl

end Cert.KernelIdeal.FoldChain

end
-- ==== Proof.lean ====
/-
  The proof of `Cert.Claim`: a two-layer graph network computed by five kernel regions among host operations is,
  on the extended reals and from finite inputs, the same function of its arguments as its plain reference.

  Both programs build the graph's edge lists with self-loops and the symmetric weights `deg^(-1/2) · deg^(-1/2)`,
  apply a linear map, a graph convolution (gather the source rows, weigh, add into the target rows, add the
  bias), a normalisation of every feature column followed by a clamp at zero, a second linear map and
  convolution, and the logistic function. The kernel program computes the two linear maps, the column sums, the
  normalisation and the logistic function in row blocks of 10000, and the rest by the reference's own host
  operations; on the extended reals a matrix product accumulated block by block is the whole product, a sum
  taken block by block is the whole sum, and a change of float format is the identity, so each region's output
  array is the reference's stage of the region's input arrays.

  The one place where the two programs spell a quantity differently is the variance of a feature column: the
  reference takes the mean of the squared deviations from the mean, the kernel program the mean of the squares
  minus the squared mean. These agree for real numbers, by expanding the square; they need not agree once an
  infinity occurs. Under the precondition every float argument is finite, so the first layer's output — sums and
  products of finitely many reals, with `deg^(-1/2)` taken only where the degree is positive — is an array of real
  numbers, and the two variances are equal.

  The three frame claims: the two kernel programs' are the launch of their regions and host stretches; the
  reference's is its run with the result forgotten. The idealization rewrote nothing, so `preserves` is trivial.
-/
import proofs.«113359_j37572373905743_1_alg».proof.Defs
import proofs.«113359_j37572373905743_1_alg».proof.Proof.Gen.Kernel
import proofs.«113359_j37572373905743_1_alg».proof.Proof.Gen.Kernel.Frame
import proofs.«113359_j37572373905743_1_alg».proof.Proof.Gen.KernelIdeal
import proofs.«113359_j37572373905743_1_alg».proof.Proof.Gen.KernelIdeal.Frame
import proofs.«113359_j37572373905743_1_alg».proof.Proof.Gen.ReferenceIdeal
import proofs.«113359_j37572373905743_1_alg».proof.Proof.Gen.Pre_finite_inputs
import proofs.«113359_j37572373905743_1_alg».proof.Proof.ValueRun
import proofs.«113359_j37572373905743_1_alg».proof.Proof.RefRun
import proofs.«113359_j37572373905743_1_alg».proof.Proof.Finite
import proofs.«113359_j37572373905743_1_alg».proof.Proof.FoldChain
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the arguments, both idealized programs end with the network's value of the
    arguments in their result buffers: the kernel program because its fold through regions and host stretches
    reads back to that value when the float arguments are real, the reference because that value is its
    operations' composition. -/
theorem algebraic : Cert.algebraic_KernelIdeal_ReferenceIdeal := by
  intro m ρ m' ρ' hpre hagree
  refine ⟨fun c => Cert.Spec.result (F := Ideal) (Cert.KernelIdeal.FoldChain.x0 m c) (Cert.KernelIdeal.FoldChain.x1 m c)
    (Cert.KernelIdeal.FoldChain.x2 m c) (Cert.KernelIdeal.FoldChain.x3 m c) (Cert.KernelIdeal.FoldChain.x4 m c)
    (Cert.KernelIdeal.FoldChain.x5 m c) (Cert.KernelIdeal.FoldChain.x6 m c) (Cert.KernelIdeal.FoldChain.edges m c), ?_, ?_⟩
  · exact (θ_run Cert.KernelIdeal.defs _ _).mono
      (fun r h c => ⟨(h c).1.trans (Cert.KernelIdeal.FoldChain.result_eq m ρ c (Cert.Finite.args_real_of_Pre_KernelIdeal m hpre c)), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, -⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
